-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v34_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512 : Shape := ⟨2, ![4, 512]⟩
abbrev S4x1x1024 : Shape := ⟨3, ![4, 1, 1024]⟩
abbrev S250000x256 : Shape := ⟨2, ![250000, 256]⟩
abbrev S1000x256 : Shape := ⟨2, ![1000, 256]⟩
abbrev S_ : Shape := ⟨0, ![]⟩

class Facts : Prop where
  bcast_S_S250000x256 : S_.BroadcastsInDim S250000x256 (![] : Fin 0 → Fin S250000x256.rank)
  reducesTo_S250000x256_S_d0_1 : S250000x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_

variable [Facts]

def fn {F : FTy → Type} [FloatOps F] (main_arg0 : IVec S4x512 32) (main_arg1 : IVec S4x512 32) (main_arg2 : IVec S4x512 32) (main_arg3 : IVec S4x1x1024 32) (main_arg4 : FVec F S250000x256 .f32) (main_arg5 : FVec F S1000x256 .f32) : IVec S_ 1 :=
  let main_v0 : FVec F S250000x256 .f32 := Host.absf main_arg4
  let main_cst : FVec F S_ .f32 := constant S_ .f32 0x7F800000#32
  let main_v1 : FVec F S250000x256 .f32 := broadcastInDim S250000x256 ![] bcast_S_S250000x256 main_cst
  let main_v2 : IVec S250000x256 1 := cmpf .olt main_v0 main_v1
  let main_c : IVec S_ 1 := constantI S_ 1 1#1
  let main_v3 : IVec S_ 1 := (fun x v => Host.reduce IntOp.andi x v reducesTo_S250000x256_S_d0_1 h_S_) main_v2 main_c
  let main_v4 : FVec F S1000x256 .f32 := Host.absf main_arg5
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  main_v8
-- ==== Kernel.lean ====
abbrev S4x512 : Shape := ⟨2, ![4, 512]⟩
abbrev S4x1x1024 : Shape := ⟨3, ![4, 1, 1024]⟩
abbrev S250000x256 : Shape := ⟨2, ![250000, 256]⟩
abbrev S1000x256 : Shape := ⟨2, ![1000, 256]⟩
abbrev S2048 : Shape := ⟨1, ![2048]⟩
abbrev S1x1x1024 : Shape := ⟨3, ![1, 1, 1024]⟩
abbrev S1024 : Shape := ⟨1, ![1024]⟩
abbrev S_ : Shape := ⟨0, ![]⟩
abbrev S2048x1 : Shape := ⟨2, ![2048, 1]⟩
abbrev S2048x256 : Shape := ⟨2, ![2048, 256]⟩
abbrev S1024x1 : Shape := ⟨2, ![1024, 1]⟩
abbrev S1024x256 : Shape := ⟨2, ![1024, 256]⟩
abbrev S2048x4096 : Shape := ⟨2, ![2048, 4096]⟩
abbrev S512x256 : Shape := ⟨2, ![512, 256]⟩
abbrev S512x1 : Shape := ⟨2, ![512, 1]⟩
abbrev S512x4096 : Shape := ⟨2, ![512, 4096]⟩
abbrev S512 : Shape := ⟨1, ![512]⟩
abbrev S512x1024 : Shape := ⟨2, ![512, 1024]⟩

abbrev nBuf : Space → Nat
  | .hbm => 51
  | .vmem => 11
  | .smem => 0
  | _ => 0

abbrev bufTy : (tb : Table) → Fin (tcTables nBuf tb) → BufTy
  | .hbm, ⟨0, _⟩ => ⟨S4x512, .i32⟩
  | .hbm, ⟨1, _⟩ => ⟨S4x512, .i32⟩
  | .hbm, ⟨2, _⟩ => ⟨S4x512, .i32⟩
  | .hbm, ⟨3, _⟩ => ⟨S4x1x1024, .i32⟩
  | .hbm, ⟨4, _⟩ => ⟨S250000x256, .f32⟩
  | .hbm, ⟨5, _⟩ => ⟨S1000x256, .f32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S1x1x1024, .i32⟩
  | .hbm, ⟨10, _⟩ => ⟨S1024, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S2048x1, .i32⟩
  | .hbm, ⟨19, _⟩ => ⟨S2048x256, .f32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048x1, .i32⟩
  | .hbm, ⟨28, _⟩ => ⟨S2048x256, .f32⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S_, .i32⟩
  | .hbm, ⟨33, _⟩ => ⟨S1024, .i32⟩
  | .hbm, ⟨34, _⟩ => ⟨S1024, .i32⟩
  | .hbm, ⟨35, _⟩ => ⟨S1024, .i32⟩
  | .hbm, ⟨36, _⟩ => ⟨S1024x1, .i32⟩
  | .hbm, ⟨37, _⟩ => ⟨S1024x256, .f32⟩
  | .hbm, ⟨38, _⟩ => ⟨S1024x256, .bf16⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S2048x1, .i32⟩
  | .hbm, ⟨47, _⟩ => ⟨S2048x256, .f32⟩
  | .hbm, ⟨48, _⟩ => ⟨S2048x1, .f32⟩
  | .hbm, ⟨49, _⟩ => ⟨S2048x4096, .f32⟩
  | .hbm, ⟨50, _⟩ => ⟨S2048, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1024x256, .bf16⟩
  | .local _ .vmem, ⟨7, _⟩ => ⟨S512x1, .f32⟩
  | .local _ .vmem, ⟨8, _⟩ => ⟨S512x1, .f32⟩
  | .local _ .vmem, ⟨9, _⟩ => ⟨S512x4096, .f32⟩
  | .local _ .vmem, ⟨10, _⟩ => ⟨S512x4096, .f32⟩
  | _, _ => ⟨S4x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34_0 : Ref sig .tc := ⟨.hbm, 48, rfl⟩
abbrev main_v34_1 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x512_S2048 : S4x512.ShapeCasts S2048
  slices_S4x1x1024_S1x1x1024_0_0_0 : S4x1x1024.Slices ![0, 0, 0] S1x1x1024
  shapeCasts_S1x1x1024_S1024 : S1x1x1024.ShapeCasts S1024
  bcast_S_S2048 : S_.BroadcastsInDim S2048 (![] : Fin 0 → Fin S2048.rank)
  bcast_S2048_S2048x1_0 : S2048.BroadcastsInDim S2048x1 (![0] : Fin 1 → Fin S2048x1.rank)
  bcast_S_S1024 : S_.BroadcastsInDim S1024 (![] : Fin 0 → Fin S1024.rank)
  bcast_S1024_S1024x1_0 : S1024.BroadcastsInDim S1024x1 (![0] : Fin 1 → Fin S1024x1.rank)
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S512 : S512x256.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S512x4096_S512x1024_0_0 : ∀ a, (![0, 0] : Fin 2 → Nat) a + S512x1024.size a ≤ S512x4096.size a
  h_S512x1024 : 0 < S512x1024.numel
  inb_S512x4096_S512x1024_0_1024 : ∀ a, (![0, 1024] : Fin 2 → Nat) a + S512x1024.size a ≤ S512x4096.size a
  inb_S512x4096_S512x1024_0_2048 : ∀ a, (![0, 2048] : Fin 2 → Nat) a + S512x1024.size a ≤ S512x4096.size a
  inb_S512x4096_S512x1024_0_3072 : ∀ a, (![0, 3072] : Fin 2 → Nat) a + S512x1024.size a ≤ S512x4096.size a
  shapeCasts_S2048x1_S2048 : S2048x1.ShapeCasts S2048
  gather_S250000x256_S2048x1_S2048x256_1_0_n_n_0_1_1256_wf : GatherDims.WF S250000x256 S2048x1 S2048x256 [1] [0] [] [0] [] 1 ![1, 256]
  gather_S250000x256_S1024x1_S1024x256_1_0_n_n_0_1_1256_wf : GatherDims.WF S250000x256 S1024x1 S1024x256 [1] [0] [] [0] [] 1 ![1, 256]
  gather_S1000x256_S2048x1_S2048x256_1_0_n_n_0_1_1256_wf : GatherDims.WF S1000x256 S2048x1 S2048x256 [1] [0] [] [0] [] 1 ![1, 256]
  dot_S512x256_S1024x256_S512x1024_1_1_0_0_n_n_wf : DotDims.WF S512x256 S1024x256 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S2048x256.size a
  hwx0_0 : ∀ i : grid0.Coords, EltTy.bits .f32 = 32 ∨ (Rect.block (s := S2048x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S2048x256.size a
  hwx0_1 : ∀ i : grid0.Coords, EltTy.bits .f32 = 32 ∨ (Rect.block (s := S2048x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S2048x256.size a
  hwx0_2 : ∀ i : grid0.Coords, EltTy.bits .f32 = 32 ∨ (Rect.block (s := S2048x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S2048x1.size a
  hwx0_4 : ∀ i : grid0.Coords, EltTy.bits .f32 = 32 ∨ (Rect.block (s := S2048x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S2048x4096.size a
  hwx0_5 : ∀ i : grid0.Coords, EltTy.bits .f32 = 32 ∨ (Rect.block (s := S2048x4096) S512x4096.size (cc0_transform_5 i) (hinb0_5 i)).WholeWords (EltTy.packing .f32)

variable [Facts₀]

def gather_S250000x256_S2048x1_S2048x256_1_0_n_n_0_1_1256 : GatherDims S250000x256 S2048x1 S2048x256 where
  offsetDims := [1]
  collapsedSliceDims := [0]
  operandBatchingDims := []
  startIndicesBatchingDims := []
  startIndexMap := [0]
  indexVectorDim := 1
  sliceSizes := ![1, 256]
  wf := gather_S250000x256_S2048x1_S2048x256_1_0_n_n_0_1_1256_wf
def gather_S250000x256_S1024x1_S1024x256_1_0_n_n_0_1_1256 : GatherDims S250000x256 S1024x1 S1024x256 where
  offsetDims := [1]
  collapsedSliceDims := [0]
  operandBatchingDims := []
  startIndicesBatchingDims := []
  startIndexMap := [0]
  indexVectorDim := 1
  sliceSizes := ![1, 256]
  wf := gather_S250000x256_S1024x1_S1024x256_1_0_n_n_0_1_1256_wf
def gather_S1000x256_S2048x1_S2048x256_1_0_n_n_0_1_1256 : GatherDims S1000x256 S2048x1 S2048x256 where
  offsetDims := [1]
  collapsedSliceDims := [0]
  operandBatchingDims := []
  startIndicesBatchingDims := []
  startIndexMap := [0]
  indexVectorDim := 1
  sliceSizes := ![1, 256]
  wf := gather_S1000x256_S2048x1_S2048x256_1_0_n_n_0_1_1256_wf
def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf

abbrev win0_0 : Pipeline.Window sig grid0 :=
  Pipeline.Window.ofSpec (Memref.whole main_v11) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v34_1) S512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x512 : Shape := ⟨2, ![4, 512]⟩
abbrev S4x1x1024 : Shape := ⟨3, ![4, 1, 1024]⟩
abbrev S250000x256 : Shape := ⟨2, ![250000, 256]⟩
abbrev S1000x256 : Shape := ⟨2, ![1000, 256]⟩
abbrev S4x1024 : Shape := ⟨2, ![4, 1024]⟩
abbrev S4x2048 : Shape := ⟨2, ![4, 2048]⟩
abbrev S_ : Shape := ⟨0, ![]⟩
abbrev S4x2048x1 : Shape := ⟨3, ![4, 2048, 1]⟩
abbrev S4x2048x256 : Shape := ⟨3, ![4, 2048, 256]⟩
abbrev S4x512x256 : Shape := ⟨3, ![4, 512, 256]⟩
abbrev S4x1024x256 : Shape := ⟨3, ![4, 1024, 256]⟩
abbrev S4x1x1024x256 : Shape := ⟨4, ![4, 1, 1024, 256]⟩
abbrev S1x1x1024x256 : Shape := ⟨4, ![1, 1, 1024, 256]⟩
abbrev S1x1024x256 : Shape := ⟨3, ![1, 1024, 256]⟩
abbrev S4x4x512 : Shape := ⟨3, ![4, 4, 512]⟩
abbrev S4x4x512x256 : Shape := ⟨4, ![4, 4, 512, 256]⟩
abbrev S8192x256 : Shape := ⟨2, ![8192, 256]⟩
abbrev S8192 : Shape := ⟨1, ![8192]⟩
abbrev S8192x1 : Shape := ⟨2, ![8192, 1]⟩
abbrev S1024x256 : Shape := ⟨2, ![1024, 256]⟩
abbrev S8192x1024 : Shape := ⟨2, ![8192, 1024]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S2048x256 : Shape := ⟨2, ![2048, 256]⟩
abbrev S2048 : Shape := ⟨1, ![2048]⟩
abbrev S2048x1 : Shape := ⟨2, ![2048, 1]⟩

abbrev nBuf : Space → Nat
  | .hbm => 59
  | .vmem => 0
  | .smem => 0
  | _ => 0

abbrev bufTy : (tb : Table) → Fin (tcTables nBuf tb) → BufTy
  | .hbm, ⟨0, _⟩ => ⟨S4x512, .i32⟩
  | .hbm, ⟨1, _⟩ => ⟨S4x512, .i32⟩
  | .hbm, ⟨2, _⟩ => ⟨S4x512, .i32⟩
  | .hbm, ⟨3, _⟩ => ⟨S4x1x1024, .i32⟩
  | .hbm, ⟨4, _⟩ => ⟨S250000x256, .f32⟩
  | .hbm, ⟨5, _⟩ => ⟨S1000x256, .f32⟩
  | .hbm, ⟨6, _⟩ => ⟨S4x1024, .i32⟩
  | .hbm, ⟨7, _⟩ => ⟨S4x2048, .i32⟩
  | .hbm, ⟨8, _⟩ => ⟨S_, .i32⟩
  | .hbm, ⟨9, _⟩ => ⟨S4x2048, .i32⟩
  | .hbm, ⟨10, _⟩ => ⟨S4x2048, .i1⟩
  | .hbm, ⟨11, _⟩ => ⟨S_, .i32⟩
  | .hbm, ⟨12, _⟩ => ⟨S4x2048, .i32⟩
  | .hbm, ⟨13, _⟩ => ⟨S4x2048, .i32⟩
  | .hbm, ⟨14, _⟩ => ⟨S4x2048, .i32⟩
  | .hbm, ⟨15, _⟩ => ⟨S4x2048x1, .i32⟩
  | .hbm, ⟨16, _⟩ => ⟨S4x2048x256, .f32⟩
  | .hbm, ⟨17, _⟩ => ⟨S4x512x256, .f32⟩
  | .hbm, ⟨18, _⟩ => ⟨S4x512x256, .f32⟩
  | .hbm, ⟨19, _⟩ => ⟨S4x1024x256, .f32⟩
  | .hbm, ⟨20, _⟩ => ⟨S4x1x1024x256, .f32⟩
  | .hbm, ⟨21, _⟩ => ⟨S1x1x1024x256, .f32⟩
  | .hbm, ⟨22, _⟩ => ⟨S1x1024x256, .f32⟩
  | .hbm, ⟨23, _⟩ => ⟨S1x1x1024x256, .f32⟩
  | .hbm, ⟨24, _⟩ => ⟨S4x4x512, .i32⟩
  | .hbm, ⟨25, _⟩ => ⟨S4x4x512x256, .f32⟩
  | .hbm, ⟨26, _⟩ => ⟨S8192x256, .f32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192x1, .i32⟩
  | .hbm, ⟨36, _⟩ => ⟨S8192x256, .f32⟩
  | .hbm, ⟨37, _⟩ => ⟨S1024x256, .f32⟩
  | .hbm, ⟨38, _⟩ => ⟨S8192x256, .f32⟩
  | .hbm, ⟨39, _⟩ => ⟨S8192x1024, .f32⟩
  | .hbm, ⟨40, _⟩ => ⟨S4x2048x1024, .f32⟩
  | .hbm, ⟨41, _⟩ => ⟨S2048x4x1024, .f32⟩
  | .hbm, ⟨42, _⟩ => ⟨S2048x4096, .f32⟩
  | .hbm, ⟨43, _⟩ => ⟨S2048x256, .f32⟩
  | .hbm, ⟨44, _⟩ => ⟨S2048, .i32⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S2048, .i32⟩
  | .hbm, ⟨52, _⟩ => ⟨S2048x1, .i32⟩
  | .hbm, ⟨53, _⟩ => ⟨S2048x256, .f32⟩
  | .hbm, ⟨54, _⟩ => ⟨S2048x256, .f32⟩
  | .hbm, ⟨55, _⟩ => ⟨S2048x256, .f32⟩
  | .hbm, ⟨56, _⟩ => ⟨S2048x256, .f32⟩
  | .hbm, ⟨57, _⟩ => ⟨S_, .f32⟩
  | .hbm, ⟨58, _⟩ => ⟨S2048, .f32⟩
  | _, _ => ⟨S4x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst : Ref sig .tc := ⟨.hbm, 57, rfl⟩
abbrev main_v45 : Ref sig .tc := ⟨.hbm, 58, rfl⟩

abbrev nD : Nat := 1
abbrev τ : Topo := Topo.v7x

variable {F : FTy → Type} [FloatOps F]

class Facts₀ : Prop where
  shapeCasts_S4x1x1024_S4x1024 : S4x1x1024.ShapeCasts S4x1024
  concatenates_S4x512_S4x512_S4x1024_S4x2048_d1 : Shape.Concatenates [S4x512, S4x512, S4x1024] S4x2048 1
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  slices_S4x2048x256_S4x512x256_0_0_0 : S4x2048x256.Slices ![0, 0, 0] S4x512x256
  slices_S4x2048x256_S4x512x256_0_512_0 : S4x2048x256.Slices ![0, 512, 0] S4x512x256
  slices_S4x2048x256_S4x1024x256_0_1024_0 : S4x2048x256.Slices ![0, 1024, 0] S4x1024x256
  shapeCasts_S4x1024x256_S4x1x1024x256 : S4x1024x256.ShapeCasts S4x1x1024x256
  slices_S4x1x1024x256_S1x1x1024x256_0_0_0_0 : S4x1x1024x256.Slices ![0, 0, 0, 0] S1x1x1024x256
  shapeCasts_S1x1x1024x256_S1x1024x256 : S1x1x1024x256.ShapeCasts S1x1024x256
  bcast_S1x1024x256_S1x1x1024x256_1_2_3 : S1x1024x256.BroadcastsInDim S1x1x1024x256 (![1, 2, 3] : Fin 3 → Fin S1x1x1024x256.rank)
  bcast_S4x512_S4x4x512_1_2 : S4x512.BroadcastsInDim S4x4x512 (![1, 2] : Fin 2 → Fin S4x4x512.rank)
  bcast_S4x512x256_S4x4x512x256_1_2_3 : S4x512x256.BroadcastsInDim S4x4x512x256 (![1, 2, 3] : Fin 3 → Fin S4x4x512x256.rank)
  shapeCasts_S4x4x512x256_S8192x256 : S4x4x512x256.ShapeCasts S8192x256
  shapeCasts_S4x4x512_S8192 : S4x4x512.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  shapeCasts_S1x1x1024x256_S1024x256 : S1x1x1024x256.ShapeCasts S1024x256
  shapeCasts_S8192x1024_S4x2048x1024 : S8192x1024.ShapeCasts S4x2048x1024
  transposes_S4x2048x1024_S2048x4x1024_1_0_2 : S4x2048x1024.Transposes [1, 0, 2] S2048x4x1024
  shapeCasts_S2048x4x1024_S2048x4096 : S2048x4x1024.ShapeCasts S2048x4096
  shapeCasts_S4x512x256_S2048x256 : S4x512x256.ShapeCasts S2048x256
  shapeCasts_S4x512_S2048 : S4x512.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  reducesTo_S2048x256_S2048_d1 : S2048x256.ReducesTo [1] S2048
  h_S_ : 0 < S_.numel
  gather_S250000x256_S4x2048x1_S4x2048x256_2_0_n_n_0_2_1256_wf : GatherDims.WF S250000x256 S4x2048x1 S4x2048x256 [2] [0] [] [0] [] 2 ![1, 256]
  gather_S1000x256_S8192x1_S8192x256_1_0_n_n_0_1_1256_wf : GatherDims.WF S1000x256 S8192x1 S8192x256 [1] [0] [] [0] [] 1 ![1, 256]
  dot_S8192x256_S1024x256_S8192x1024_1_1_0_0_n_n_wf : DotDims.WF S8192x256 S1024x256 S8192x1024 [1] [1] [0] [0] [] []
  gather_S1000x256_S2048x1_S2048x256_1_0_n_n_0_1_1256_wf : GatherDims.WF S1000x256 S2048x1 S2048x256 [1] [0] [] [0] [] 1 ![1, 256]

variable [Facts₀]

def gather_S250000x256_S4x2048x1_S4x2048x256_2_0_n_n_0_2_1256 : GatherDims S250000x256 S4x2048x1 S4x2048x256 where
  offsetDims := [2]
  collapsedSliceDims := [0]
  operandBatchingDims := []
  startIndicesBatchingDims := []
  startIndexMap := [0]
  indexVectorDim := 2
  sliceSizes := ![1, 256]
  wf := gather_S250000x256_S4x2048x1_S4x2048x256_2_0_n_n_0_2_1256_wf
def gather_S1000x256_S8192x1_S8192x256_1_0_n_n_0_1_1256 : GatherDims S1000x256 S8192x1 S8192x256 where
  offsetDims := [1]
  collapsedSliceDims := [0]
  operandBatchingDims := []
  startIndicesBatchingDims := []
  startIndexMap := [0]
  indexVectorDim := 1
  sliceSizes := ![1, 256]
  wf := gather_S1000x256_S8192x1_S8192x256_1_0_n_n_0_1_1256_wf
def dot_S8192x256_S1024x256_S8192x1024_1_1_0_0_n_n : DotDims S8192x256 S1024x256 S8192x1024 where
  lhsContracting := [1]
  rhsContracting := [1]
  lhsNonContracting := [0]
  rhsNonContracting := [0]
  lhsBatch := []
  rhsBatch := []
  wf := dot_S8192x256_S1024x256_S8192x1024_1_1_0_0_n_n_wf
def gather_S1000x256_S2048x1_S2048x256_1_0_n_n_0_1_1256 : GatherDims S1000x256 S2048x1 S2048x256 where
  offsetDims := [1]
  collapsedSliceDims := [0]
  operandBatchingDims := []
  startIndicesBatchingDims := []
  startIndexMap := [0]
  indexVectorDim := 1
  sliceSizes := ![1, 256]
  wf := gather_S1000x256_S2048x1_S2048x256_1_0_n_n_0_1_1256_wf

class Facts : Prop extends Facts₀ where

variable [Facts]
-- ==== Proof.LibColumns.lean ====
/-
  The columns of a two-column array, read at coordinates: the second column cut out of `[a, 2]`, a column
  `[a, 1]` flattened to a vector `[a]` (and the two together: the second column as a vector), a vector laid
  out as a column by a broadcast along the rows, and two columns joined side by side into `[a, 2]`. Each lemma names the operand's index by coordinates, so that it
  applies by unification at any literal length `a`.
-/
import Idealize.ShloMosaic.Lib.Pipeline.Value
import Idealize.ShloMosaic.Lib.ValueIdx

namespace Cert.LibColumns

open Idealize.ShloMosaic Idealize.ShloMosaic.ValueIdx

variable {α : Type}

/-- The second column of an `[a, 2]` array cut out as an `[a, 1]` column (offsets `(0, 1)`, unit strides):
    at `(i, u)` it is the array at `(i, 1)`, the unit coordinate `u` being zero. -/
theorem slice_col1_apply {a : ℕ} (x : (⟨2, ![a, 2]⟩ : Shape).Idx → α)
    (h : (⟨2, ![a, 2]⟩ : Shape).Slices ![0, 1] ⟨2, ![a, 1]⟩) (i : Fin a) (u : Fin 1) :
    extractStridedSlice ⟨2, ![a, 1]⟩ ![0, 1] x h (ix2 i u) = x (ix2 i (1 : Fin 2)) :=
  extractStridedSlice_apply ![0, 1] x h (ix2 i u) (ix2 i (1 : Fin 2)) fun ax => by
    match ax with
    | ⟨0, _⟩ => show i.val = 0 + i.val; omega
    | ⟨1, _⟩ => show 1 = 1 + u.val; omega

/-- A column `[a, 1]` flattened to a vector `[a]` reads, at `i`, the column's entry of row `i`: the row-major
    position of `(i, 0)` is `i · 1 + 0 = i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The second column of an `[a, 2]` array as a vector `[a]`: cut out as a column, then flattened. -/
def secondColumn {a : ℕ} (hs : (⟨2, ![a, 2]⟩ : Shape).Slices ![0, 1] ⟨2, ![a, 1]⟩)
    (hc : (⟨2, ![a, 1]⟩ : Shape).ShapeCasts ⟨1, ![a]⟩) (y : (⟨2, ![a, 2]⟩ : Shape).Idx → α) :
    (⟨1, ![a]⟩ : Shape).Idx → α :=
  shapeCast ⟨1, ![a]⟩ (extractStridedSlice ⟨2, ![a, 1]⟩ ![0, 1] y hs) hc

/-- It reads, at `i`, the array at `(i, 1)`. -/
theorem secondColumn_apply {a : ℕ} (hs : (⟨2, ![a, 2]⟩ : Shape).Slices ![0, 1] ⟨2, ![a, 1]⟩)
    (hc : (⟨2, ![a, 1]⟩ : Shape).ShapeCasts ⟨1, ![a]⟩) (y : (⟨2, ![a, 2]⟩ : Shape).Idx → α) (i : Fin a) :
    secondColumn hs hc y (ix1 i) = y (ix2 i (1 : Fin 2)) :=
  (shapeCast_a1_a_apply _ hc i).trans (slice_col1_apply y hs i 0)

/-- A vector `[a]` laid out as a column `[a, 1]` by a broadcast that sends its one axis to the rows reads,
    at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply ![0] h x (ix2 i u) (ix1 i) fun ax => by
    match ax with
    | ⟨0, _⟩ =>
      show i.val = if a = 1 then 0 else i.val
      split
      · have := i.isLt; omega
      · rfl

/-- Two columns `[a, 1]` joined along the second axis into `[a, 2]`: at `(i, j)` the first column's entry of
    row `i` when `j = 0`, the second column's when `j = 1`. -/
theorem concat_cols_apply {a : ℕ} (x y : (⟨2, ![a, 1]⟩ : Shape).Idx → α)
    (h : Shape.Concatenates [(⟨2, ![a, 1]⟩ : Shape), ⟨2, ![a, 1]⟩] ⟨2, ![a, 2]⟩ 1) (i : Fin a) (j : Fin 2) :
    concatenate ⟨2, ![a, 2]⟩ 1 [⟨⟨2, ![a, 1]⟩, x⟩, ⟨⟨2, ![a, 1]⟩, y⟩] h (ix2 i j)
      = if j = 0 then x (ix2 i (0 : Fin 1)) else y (ix2 i (0 : Fin 1)) := by
  match j with
  | ⟨0, _⟩ =>
    refine Eq.trans ?_ (if_pos rfl).symm
    exact concatenate_pair_apply_left 1 x y h _ rfl _ fun b => by
      match b with
      | ⟨0, _⟩ => rfl
      | ⟨1, _⟩ => rfl
  | ⟨1, _⟩ =>
    refine Eq.trans ?_ (if_neg (Fin.ne_of_val_ne Nat.one_ne_zero)).symm
    exact concatenate_pair_apply_right 1 x y h _ rfl rfl _ (fun b hb => by
      match b with
      | ⟨0, _⟩ => rfl
      | ⟨1, _⟩ => exact absurd rfl hb) rfl

end Cert.LibColumns
-- ==== Proof.LibRowGather.lean ====
/-
  Rows gathered out of a table, read at coordinates.

  A table `[N, C]` indexed by an integer array gives, for every entry of the integer array, one row of the table:
  the entry is read as a signed integer and clamped into `[0, N - 1]` (`rowOf`), and the result holds that row's
  `C` entries along a new last axis. Two layouts of the integer array are read here: a column `[R, 1]` (result
  `[R, C]`) and a block `[A, B, 1]` (result `[A, B, C]`). Each lemma names the table's index by coordinates, so that
  it applies by unification at any literal extents.
-/
import Idealize.ShloMosaic.Lib.ValueIdx

namespace Cert.LibRowGather

open Idealize.ShloMosaic Idealize.ShloMosaic.ValueIdx

variable {α : Type}

/-- The row of a table of `N` rows that a start word names: the word read as a signed integer, clamped into
    `[0, N - 1]`. -/
def rowOf (N : ℕ) (hN : 0 < N) {w : ℕ} (v : BitVec w) : Fin N := ⟨min v.toInt.toNat (N - 1), by omega⟩

/-- An axis of a two-axis array is the first or the second. -/
theorem two_cases (a : Fin 2) : a = 0 ∨ a = 1 := by
  rcases a with ⟨v, hv⟩
  rcases (by omega : v = 0 ∨ v = 1) with rfl | rfl
  · exact Or.inl rfl
  · exact Or.inr rfl

/-! ## Start words in a column `[R, 1]` -/

/-- The dimension numbers of `table[idx]` for a table `[N, C]` and start words `[R, 1]`: the table's row axis is
    indexed and collapsed, its column axis is copied whole to the result's last axis. -/
abbrev rowDims (N C R : ℕ) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at `(r, e)`: entry `e` of the table's row named by the start word of position `r`. -/
theorem rowGather_apply {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (e : Fin C) :
    Host.gather (rowDims N C R wf) x idx (ix2 r e) = x (ix2 (rowOf N hN (idx (ix2 r (0 : Fin 1)))) e) := by
  unfold Host.gather
  congr 1
  funext a
  refine Fin.ext ?_
  show (rowDims N C R wf).start (ix2 r e) idx a + (rowDims N C R wf).batchCoord (ix2 r e) a
    + (rowDims N C R wf).offCoord (ix2 r e) a = _
  rw [GatherDims.batchCoord_eq_zero _ _ _ List.not_mem_nil]
  rcases two_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r e) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  · have hs : (1 : Fin 2) ∉ (rowDims N C R wf).startIndexMap := (by decide : (1 : Fin 2) ∉ ([0] : List (Fin 2)))
    have hk : (1 : Fin 2) ∈ (rowDims N C R wf).sKept :=
      (by decide : (1 : Fin 2) ∈ (List.finRange 2).filter (· ∉ ([0] : List (Fin 2)) ++ []))
    unfold GatherDims.start
    rw [dif_neg hs]
    unfold GatherDims.offCoord
    rw [dif_pos hk]
    show 0 + 0 + e.val = e.val
    omega

/-! ## Start words in a block `[A, B, 1]` -/

/-- The same for start words `[A, B, 1]`: the result is `[A, B, C]`. -/
abbrev rowDims3 (N C A B : ℕ)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The gather read at `(a, b, e)`: entry `e` of the table's row named by the start word of position `(a, b)`. -/
theorem rowGather3_apply {N C A B w : ℕ} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (e : Fin C) :
    Host.gather (rowDims3 N C A B wf) x idx (ix3 a b e) = x (ix2 (rowOf N hN (idx (ix3 a b (0 : Fin 1)))) e) := by
  unfold Host.gather
  congr 1
  funext ax
  refine Fin.ext ?_
  show (rowDims3 N C A B wf).start (ix3 a b e) idx ax + (rowDims3 N C A B wf).batchCoord (ix3 a b e) ax
    + (rowDims3 N C A B wf).offCoord (ix3 a b e) ax = _
  rw [GatherDims.batchCoord_eq_zero _ _ _ List.not_mem_nil]
  rcases two_cases ax with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims3 N C A B wf).startIndexMap from List.mem_singleton.mpr rfl)]
    have hsi : (rowDims3 N C A B wf).siIdx (ix3 a b e) ⟨List.idxOf (0 : Fin 2) (rowDims3 N C A B wf).startIndexMap,
        List.idxOf_lt_length_iff.2 (List.mem_singleton.mpr rfl)⟩ = ix3 a b (0 : Fin 1) := by
      funext d; refine Fin.ext ?_
      match d with
      | ⟨0, _⟩ => rfl
      | ⟨1, _⟩ => rfl
      | ⟨2, _⟩ => rfl
    rw [hsi]
    rfl
  · have hs : (1 : Fin 2) ∉ (rowDims3 N C A B wf).startIndexMap := (by decide : (1 : Fin 2) ∉ ([0] : List (Fin 2)))
    have hk : (1 : Fin 2) ∈ (rowDims3 N C A B wf).sKept :=
      (by decide : (1 : Fin 2) ∈ (List.finRange 2).filter (· ∉ ([0] : List (Fin 2)) ++ []))
    unfold GatherDims.start
    rw [dif_neg hs]
    unfold GatherDims.offCoord
    rw [dif_pos hk]
    show 0 + 0 + e.val = e.val
    omega

end Cert.LibRowGather
-- ==== Proof.Spec.lean ====
/-
  What the two programs compute, as functions of the six argument arrays, index by index.

  Three integer arrays `[4, 512]` (heads, relations, tails) are read as 2048 triples, triple `q` at
  `(q / 512, q % 512)`; a fourth, `[4, 1, 1024]`, gives 1024 shared negative entities in its first slab. Every integer
  names a row of a table — entities `[250000, 256]`, relations `[1000, 256]` — after the usual normalisation: a
  negative integer counts from the end of the table (`wrap`), and the result is clamped into the table (`rowOf`).
  With `h`, `r`, `t` the rows of triple `q` and `g` the row of negative `n`, the positive score of `q` is
  `∑ₑ (h e · r e) · t e` and its score against negative `n` is `∑ₑ (h e · r e) · g e`; the second result repeats the
  1024 negative scores of a triple four times along its row.
-/
import Idealize.ShloMosaic.Lib.ValueIdx
import Idealize.ShloMosaic.PureOps.Ideal
import proofs.«122852_j24197845745912_2_alg».proof.Proof.LibRowGather

noncomputable section

namespace Cert.Score

open Idealize.ShloMosaic Idealize.ShloMosaic.ValueIdx Cert.LibRowGather

/-- An integer `v` naming a position of an axis of extent `N`, counted from the end when negative: `v + N` when
    `v < 0` as a signed word, else `v`. -/
def wrap (N v : BitVec 32) : BitVec 32 := Scalar.select (IntOp.cmpi .slt v 0#32) (IntOp.addi v N) v

/-- The row of the entity table an integer names. -/
def entRow (v : BitVec 32) : Fin 250000 := rowOf 250000 (by decide) (wrap 250000#32 v)

/-- The row of the relation table an integer names. -/
def relRow (v : BitVec 32) : Fin 1000 := rowOf 1000 (by decide) (wrap 1000#32 v)

/-- Entry `q` of a `[4, 512]` integer array read as 2048 entries in row-major order. -/
def tripleAt (x : IVec ⟨2, ![4, 512]⟩ 32) (q : Fin 2048) : BitVec 32 :=
  x (ix2 (⟨q.val / 512, by omega⟩ : Fin 4) (⟨q.val % 512, by omega⟩ : Fin 512))

variable (x0 x1 x2 : IVec ⟨2, ![4, 512]⟩ 32) (x3 : IVec ⟨3, ![4, 1, 1024]⟩ 32)
  (x4 : FVec Ideal ⟨2, ![250000, 256]⟩ .f32) (x5 : FVec Ideal ⟨2, ![1000, 256]⟩ .f32)

/-- Entry `e` of the entity row of the head of triple `q`. -/
def headEmb (q : Fin 2048) (e : Fin 256) : EReal := x4 (ix2 (entRow (tripleAt x0 q)) e)

/-- Entry `e` of the relation row of triple `q`. -/
def relEmb (q : Fin 2048) (e : Fin 256) : EReal := x5 (ix2 (relRow (tripleAt x1 q)) e)

/-- Entry `e` of the entity row of the tail of triple `q`. -/
def tailEmb (q : Fin 2048) (e : Fin 256) : EReal := x4 (ix2 (entRow (tripleAt x2 q)) e)

/-- Entry `e` of the entity row of shared negative `n` (the first slab of the fourth array). -/
def negEmb (n : Fin 1024) (e : Fin 256) : EReal := x4 (ix2 (entRow (x3 (ix3 (0 : Fin 4) (0 : Fin 1) n))) e)

/-- The positive score of triple `q`. -/
def posScore (q : Fin 2048) : EReal := ∑ e : Fin 256, headEmb x0 x4 q e * relEmb x1 x5 q e * tailEmb x2 x4 q e

/-- The score of triple `q` against shared negative `n`. -/
def negScore (q : Fin 2048) (n : Fin 1024) : EReal := ∑ e : Fin 256, headEmb x0 x4 q e * relEmb x1 x5 q e * negEmb x3 x4 n e

/-- The first result: the 2048 positive scores. -/
def posVec : FVec Ideal ⟨1, ![2048]⟩ .f32 := fun i => posScore x0 x1 x2 x4 x5 (⟨(i 0).val, (i 0).isLt⟩ : Fin 2048)

/-- The second result: row `q` holds the 1024 negative scores of triple `q`, four times over. -/
def negArr : FVec Ideal ⟨2, ![2048, 4096]⟩ .f32 := fun i =>
  negScore x0 x1 x3 x4 x5 (⟨(i 0).val, (i 0).isLt⟩ : Fin 2048) (⟨(i 1).val % 1024, Nat.mod_lt _ (by decide)⟩ : Fin 1024)

end Cert.Score

end
-- ==== Proof.KernelHost.lean ====
/-
  The four arrays the kernel's grid reads, as the operations in front of it compute them, read at coordinates.

  Each integer array is flattened, normalised (`v + N` where `v` is negative) and used to gather rows of a table. At
  `(q, e)` the gathered array holds entry `e` of the row the specification names for triple `q` (heads, relations,
  tails), or for shared negative `n` (the first slab of the fourth integer array); the conversion of the negatives'
  rows to a narrower float format is the identity at the exact values.
-/
import proofs.«122852_j24197845745912_2_alg».proof.Proof.Gen.KernelIdeal
import Idealize.ShloMosaic.Lib.ValueIdx
import Idealize.ShloMosaic.Lib.Pipeline.Value
import Idealize.ShloMosaic.PureOps.Ideal
import proofs.«122852_j24197845745912_2_alg».proof.Proof.LibColumns
import proofs.«122852_j24197845745912_2_alg».proof.Proof.Spec

noncomputable section

namespace Cert.Score.Host

open Idealize.ShloMosaic Idealize.ShloMosaic.ValueIdx Cert.KernelIdeal Cert.KernelIdeal.Facts₀ Cert.LibRowGather

/-- A `[4, 512]` integer array flattened to 2048 entries reads, at `q`, its entry `(q / 512, q % 512)`. -/
theorem flat_apply (x : IVec S4x512 32) (q : Fin 2048) :
    shapeCast S2048 x shapeCasts_S4x512_S2048 (ix1 q) = Cert.Score.tripleAt x q :=
  shapeCast_apply x shapeCasts_S4x512_S2048 (ix1 q) _ (by
    rw [Shape.rowMajor_val_two, Shape.rowMajor_val_one]
    show q.val / 512 * 512 + q.val % 512 = q.val
    omega)

/-- A scalar word repeated along a vector of 2048 entries reads that word everywhere. -/
theorem splat2048_apply (v : BitVec 32) (q : Fin 2048) :
    broadcastInDim S2048 ![] bcast_S_S2048 (constantI S_ 32 v) (ix1 q) = v :=
  broadcastInDim_apply _ bcast_S_S2048 (constantI S_ 32 v) (ix1 q) ix0 (fun a => a.elim0)

/-- The same along 1024 entries. -/
theorem splat1024_apply (v : BitVec 32) (n : Fin 1024) :
    broadcastInDim S1024 ![] bcast_S_S1024 (constantI S_ 32 v) (ix1 n) = v :=
  broadcastInDim_apply _ bcast_S_S1024 (constantI S_ 32 v) (ix1 n) ix0 (fun a => a.elim0)

/-- The normalised flat index vector of a `[4, 512]` integer array into a table of `N` rows. -/
def normFlat (N : BitVec 32) (x : IVec S4x512 32) : IVec S2048 32 :=
  select (cmpi .slt (shapeCast S2048 x shapeCasts_S4x512_S2048) (broadcastInDim S2048 ![] bcast_S_S2048 (constantI S_ 32 0#32)))
    (addi (shapeCast S2048 x shapeCasts_S4x512_S2048) (broadcastInDim S2048 ![] bcast_S_S2048 (constantI S_ 32 N)))
    (shapeCast S2048 x shapeCasts_S4x512_S2048)

/-- At `q` it is the normalised entry `q`. -/
theorem normFlat_apply (N : BitVec 32) (x : IVec S4x512 32) (q : Fin 2048) :
    normFlat N x (ix1 q) = Cert.Score.wrap N (Cert.Score.tripleAt x q) := by
  show Scalar.select (IntOp.cmpi .slt (shapeCast S2048 x shapeCasts_S4x512_S2048 (ix1 q))
      (broadcastInDim S2048 ![] bcast_S_S2048 (constantI S_ 32 0#32) (ix1 q)))
    (IntOp.addi (shapeCast S2048 x shapeCasts_S4x512_S2048 (ix1 q)) (broadcastInDim S2048 ![] bcast_S_S2048 (constantI S_ 32 N) (ix1 q)))
    (shapeCast S2048 x shapeCasts_S4x512_S2048 (ix1 q)) = _
  rw [flat_apply, splat2048_apply, splat2048_apply]
  rfl

/-- The entity rows of the 2048 entries of a `[4, 512]` integer array. -/
def entRows (x : IVec S4x512 32) (x4 : S250000x256.Idx → EReal) : S2048x256.Idx → EReal :=
  Host.gather gather_S250000x256_S2048x1_S2048x256_1_0_n_n_0_1_1256 x4 (broadcastInDim S2048x1 ![0] bcast_S2048_S2048x1_0 (normFlat 250000#32 x))

/-- The relation rows of the 2048 entries of a `[4, 512]` integer array. -/
def relRows (x : IVec S4x512 32) (x5 : S1000x256.Idx → EReal) : S2048x256.Idx → EReal :=
  Host.gather gather_S1000x256_S2048x1_S2048x256_1_0_n_n_0_1_1256 x5 (broadcastInDim S2048x1 ![0] bcast_S2048_S2048x1_0 (normFlat 1000#32 x))

theorem entRows_apply (x : IVec S4x512 32) (x4 : S250000x256.Idx → EReal) (q : Fin 2048) (e : Fin 256) :
    entRows x x4 (ix2 q e) = x4 (ix2 (Cert.Score.entRow (Cert.Score.tripleAt x q)) e) := by
  unfold entRows
  refine (rowGather_apply (N := 250000) (C := 256) (R := 2048) (by decide) _ x4 _ q e).trans ?_
  refine congrArg (fun r => x4 (ix2 r e)) ?_
  unfold Cert.Score.entRow
  refine congrArg (rowOf 250000 _) ?_
  rw [Cert.LibColumns.broadcastInDim_a_a1_apply, normFlat_apply]

theorem relRows_apply (x : IVec S4x512 32) (x5 : S1000x256.Idx → EReal) (q : Fin 2048) (e : Fin 256) :
    relRows x x5 (ix2 q e) = x5 (ix2 (Cert.Score.relRow (Cert.Score.tripleAt x q)) e) := by
  unfold relRows
  refine (rowGather_apply (N := 1000) (C := 256) (R := 2048) (by decide) _ x5 _ q e).trans ?_
  refine congrArg (fun r => x5 (ix2 r e)) ?_
  unfold Cert.Score.relRow
  refine congrArg (rowOf 1000 _) ?_
  rw [Cert.LibColumns.broadcastInDim_a_a1_apply, normFlat_apply]

/-- The first slab of the `[4, 1, 1024]` integer array as a vector of 1024 entries. -/
def firstSlab (x3 : IVec S4x1x1024 32) : IVec S1024 32 :=
  shapeCast S1024 (extractStridedSlice S1x1x1024 ![0, 0, 0] x3 slices_S4x1x1024_S1x1x1024_0_0_0) shapeCasts_S1x1x1024_S1024

theorem firstSlab_apply (x3 : IVec S4x1x1024 32) (n : Fin 1024) :
    firstSlab x3 (ix1 n) = x3 (ix3 (0 : Fin 4) (0 : Fin 1) n) := by
  unfold firstSlab
  refine (shapeCast_apply _ shapeCasts_S1x1x1024_S1024 (ix1 n) (ix3 (0 : Fin 1) (0 : Fin 1) n) (by
    rw [Shape.rowMajor_val_three, Shape.rowMajor_val_one]
    show (0 * 1 + 0) * 1024 + n.val = n.val
    omega)).trans ?_
  exact extractStridedSlice_apply ![0, 0, 0] x3 slices_S4x1x1024_S1x1x1024_0_0_0 (ix3 (0 : Fin 1) (0 : Fin 1) n)
    (ix3 (0 : Fin 4) (0 : Fin 1) n) fun ax => by
      match ax with
      | ⟨0, _⟩ => rfl
      | ⟨1, _⟩ => rfl
      | ⟨2, _⟩ => show n.val = 0 + n.val; omega

/-- The entity rows of the 1024 shared negatives, in the narrower float format. -/
def negRows (x3 : IVec S4x1x1024 32) (x4 : S250000x256.Idx → EReal) : S1024x256.Idx → EReal :=
  truncf (F := Ideal) .bf16 (Host.gather gather_S250000x256_S1024x1_S1024x256_1_0_n_n_0_1_1256 x4 (broadcastInDim S1024x1 ![0] bcast_S1024_S1024x1_0
    (select (cmpi .slt (firstSlab x3) (broadcastInDim S1024 ![] bcast_S_S1024 (constantI S_ 32 0#32)))
      (addi (firstSlab x3) (broadcastInDim S1024 ![] bcast_S_S1024 (constantI S_ 32 250000#32)))
      (firstSlab x3)))) bitsLt_bf16_f32

theorem negRows_apply (x3 : IVec S4x1x1024 32) (x4 : S250000x256.Idx → EReal) (n : Fin 1024) (e : Fin 256) :
    negRows x3 x4 (ix2 n e) = Cert.Score.negEmb x3 x4 n e := by
  unfold negRows Cert.Score.negEmb
  refine (rowGather_apply (N := 250000) (C := 256) (R := 1024) (by decide) _ x4 _ n e).trans ?_
  refine congrArg (fun r => x4 (ix2 r e)) ?_
  unfold Cert.Score.entRow
  refine congrArg (rowOf 250000 _) ?_
  rw [Cert.LibColumns.broadcastInDim_a_a1_apply]
  show Scalar.select (IntOp.cmpi .slt (firstSlab x3 (ix1 n)) (broadcastInDim S1024 ![] bcast_S_S1024 (constantI S_ 32 0#32) (ix1 n)))
    (IntOp.addi (firstSlab x3 (ix1 n)) (broadcastInDim S1024 ![] bcast_S_S1024 (constantI S_ 32 250000#32) (ix1 n)))
    (firstSlab x3 (ix1 n)) = _
  rw [firstSlab_apply, splat1024_apply, splat1024_apply]
  rfl

end Cert.Score.Host

end
-- ==== Proof.KernelEntry.lean ====
/-
  The arrays the kernel's grid finds when it starts are the gathered rows: the operations in front of the grid, composed.
-/
import proofs.«122852_j24197845745912_2_alg».proof.Proof.Gen.KernelIdeal.Frame
import Idealize.ShloMosaic.Lib.StableHlo.Run
import proofs.«122852_j24197845745912_2_alg».proof.Proof.KernelHost

noncomputable section

namespace Cert.Score.Entry

open Idealize.ShloMosaic Idealize.ShloMosaic.TcCoe Idealize.SL.Sem Idealize.ShloMosaic.StableHlo
open Cert.KernelIdeal Cert.KernelIdeal.Gen Cert.Score.Host

variable (m : (ℓ : Loc nD τ sig) → Buf (Elt Ideal) ℓ)

set_option maxHeartbeats 4000000 in
/-- The first window's array: the entity rows of the heads. -/
theorem V_heads (c : Dev nD) : (V m c main_v11 : S2048x256.Idx → EReal)
    = entRows (m ((c : Thread nD τ).loc main_arg0)) (m ((c : Thread nD τ).loc main_arg4)) := by
  show StableHlo.after hostOps0 (fun b => m (c, b)) (Proc.devRef .tc main_v11) = _
  after_results_simp
  rfl

set_option maxHeartbeats 4000000 in
/-- The second window's array: the relation rows. -/
theorem V_rels (c : Dev nD) : (V m c main_v33 : S2048x256.Idx → EReal)
    = relRows (m ((c : Thread nD τ).loc main_arg1)) (m ((c : Thread nD τ).loc main_arg5)) := by
  show StableHlo.after hostOps0 (fun b => m (c, b)) (Proc.devRef .tc main_v33) = _
  after_results_simp
  rfl

set_option maxHeartbeats 4000000 in
/-- The third window's array: the entity rows of the tails. -/
theorem V_tails (c : Dev nD) : (V m c main_v18 : S2048x256.Idx → EReal)
    = entRows (m ((c : Thread nD τ).loc main_arg2)) (m ((c : Thread nD τ).loc main_arg4)) := by
  show StableHlo.after hostOps0 (fun b => m (c, b)) (Proc.devRef .tc main_v18) = _
  after_results_simp
  rfl

set_option maxHeartbeats 4000000 in
/-- The fourth window's array: the entity rows of the shared negatives. -/
theorem V_negs (c : Dev nD) : (V m c main_v26 : S1024x256.Idx → EReal)
    = negRows (m ((c : Thread nD τ).loc main_arg3)) (m ((c : Thread nD τ).loc main_arg4)) := by
  show StableHlo.after hostOps0 (fun b => m (c, b)) (Proc.devRef .tc main_v26) = _
  after_results_simp
  rfl

end Cert.Score.Entry

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.LibRows.lean ====
/-
  One-axis reductions and keep-dimension layout operations read at coordinates, at the exact values.

  For a two-axis array `[m, n]`: the sum and the maximum over the second axis, at row `p`, as the sum and the fold of
  `max` over `s : Fin n` of the entry `(p, s)`. For a three-axis array `[a, b, c]`: the sum over the last axis at
  `(p, s)` and the sum over the middle axis at `(p, h)`. And the casts and broadcasts that insert or repeat a unit
  axis: `[a, b] → [a, 1, b]`, `[a, b] → [a, b, 1]`, `[a, 1, c] → [a, b, c]`, `[1, 1, c] → [a, b, c]`,
  `[a, b, 1] → [a, b, c]`. Each lemma names the operand's index by coordinates, so that it applies by unification.
-/
import Idealize.ShloMosaic.Lib.Pipeline.Value
import Idealize.ShloMosaic.Lib.ValueIdx
import Idealize.ShloMosaic.PureOps.Ideal.Laws

namespace Cert.LibRows

open Idealize.ShloMosaic Idealize.ShloMosaic.ValueIdx

variable {φ : FTy}

/-! ## Reductions over one axis -/

/-- The sum over the second axis of `[m, n]`, at row `p`: `∑ₛ x (p, s)`. -/
theorem rowSum_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (p : Fin m) :
    multiReduction .add [(1 : Fin 2)] ⟨1, ![m]⟩ x acc h hφ hacc (ix1 p) = ∑ s : Fin n, x (ix2 p s) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The maximum over the second axis of `[m, n]`, at row `p`: the fold of `max`, from the accumulator's value, over
    `s` of `x (p, s)`. -/
theorem rowMax_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.maximumf.neutral φ hφ)
    (p : Fin m) :
    multiReduction .maximumf [(1 : Fin 2)] ⟨1, ![m]⟩ x acc h hφ hacc (ix1 p)
      = (Finset.univ : Finset (Fin n)).fold max (Ideal.ofBits φ acc) (fun s => x (ix2 p s)) :=
  (Ideal.multiReduction_maximumf_single x acc h hφ hacc (ix1 p)).trans
    (congrArg ((Finset.univ : Finset (Fin n)).fold max (Ideal.ofBits φ acc)) (funext fun s => congrArg x (funext fun a => Fin.ext (by
      match a with
      | ⟨0, _⟩ => rfl
      | ⟨1, _⟩ => rfl))))

/-- The sum over the LAST axis of `[a, b, c]`, at `(p, s)`: `∑ₖ x (p, s, k)`. -/
theorem lastSum_apply {a b c : ℕ} (x : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (p : Fin a) (s : Fin b) :
    multiReduction .add [(2 : Fin 3)] ⟨2, ![a, b]⟩ x acc h hφ hacc (ix2 p s) = ∑ k : Fin c, x (ix3 p s k) :=
  (Ideal.multiReduction_add_single x acc h hφ hacc (ix2 p s)).trans
    (Finset.sum_congr rfl fun k _ => congrArg x (funext fun d => Fin.ext (by
      match d with
      | ⟨0, _⟩ => rfl
      | ⟨1, _⟩ => rfl
      | ⟨2, _⟩ => rfl)))

/-- The sum over the MIDDLE axis of `[a, b, c]`, at `(p, z)`: `∑ₛ x (p, s, z)`. -/
theorem midSum_apply {a b c : ℕ} (x : FVec Ideal ⟨3, ![a, b, c]⟩ φ) (acc : BitVec φ.bits)
    (h : (⟨3, ![a, b, c]⟩ : Shape).Reduces [(1 : Fin 3)] ⟨2, ![a, c]⟩) (hφ : FKind.Formats φ) (hacc : acc = FKind.add.neutral φ hφ)
    (p : Fin a) (z : Fin c) :
    multiReduction .add [(1 : Fin 3)] ⟨2, ![a, c]⟩ x acc h hφ hacc (ix2 p z) = ∑ s : Fin b, x (ix3 p s z) :=
  (Ideal.multiReduction_add_single x acc h hφ hacc (ix2 p z)).trans
    (Finset.sum_congr rfl fun s _ => congrArg x (funext fun d => Fin.ext (by
      match d with
      | ⟨0, _⟩ => rfl
      | ⟨1, _⟩ => rfl
      | ⟨2, _⟩ => rfl)))

/-! ## Unit axes inserted and repeated -/

variable {α : Type}

/-- `[a, b]` cast to `[a, 1, b]` reads, at `(p, u, z)`, the operand at `(p, z)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (z : Fin b) :
    shapeCast ⟨3, ![a, 1, b]⟩ x h (ix3 p u z) = x (ix2 p z) :=
  shapeCast_apply x h _ _ (by
    have hu : u.val = 0 := by omega
    rw [Shape.rowMajor_val_two, Shape.rowMajor_val_three]
    show p.val * b + z.val = (p.val * 1 + u.val) * b + z.val
    rw [hu, Nat.mul_one, Nat.add_zero])

/-- `[a, b]` cast to `[a, b, 1]` reads, at `(p, s, u)`, the operand at `(p, s)`. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    rw [hu, Nat.mul_one, Nat.add_zero])

/-- `[a, 1, c]` broadcast to `[a, b, c]` reads, at `(p, s, z)`, the operand at `(p, 0, z)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (z : Fin c) :
    broadcastTo ⟨3, ![a, b, c]⟩ v h (ix3 p s z) = v (ix3 p (0 : Fin 1) z) := by
  refine broadcastTo_apply v h (ix3 p s z) (ix3 p (0 : Fin 1) z) fun ax => ?_
  match ax with
  | ⟨0, _⟩ =>
    show p.val = if a = 1 then 0 else p.val
    split
    · have := p.isLt; omega
    · rfl
  | ⟨1, _⟩ => rfl
  | ⟨2, _⟩ =>
    show z.val = if c = 1 then 0 else z.val
    split
    · have := z.isLt; omega
    · rfl

/-- `[1, 1, c]` broadcast to `[a, b, c]` reads, at `(p, s, z)`, the operand at `(0, 0, z)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (z : Fin c) :
    broadcastTo ⟨3, ![a, b, c]⟩ v h (ix3 p s z) = v (ix3 (0 : Fin 1) (0 : Fin 1) z) := by
  refine broadcastTo_apply v h (ix3 p s z) (ix3 (0 : Fin 1) (0 : Fin 1) z) fun ax => ?_
  match ax with
  | ⟨0, _⟩ => rfl
  | ⟨1, _⟩ => rfl
  | ⟨2, _⟩ =>
    show z.val = if c = 1 then 0 else z.val
    split
    · have := z.isLt; omega
    · rfl

/-- `[a, b, 1]` broadcast to `[a, b, c]` reads, at `(p, s, z)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (z : Fin c) :
    broadcastTo ⟨3, ![a, b, c]⟩ v h (ix3 p s z) = v (ix3 p s (0 : Fin 1)) := by
  refine broadcastTo_apply v h (ix3 p s z) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Cert.LibRows
-- ==== Proof.KernelBody.lean ====
/-
  The kernel body's arithmetic, read at coordinates at the exact values.

  At one grid point the body holds three `[512, 256]` blocks `h`, `r`, `t` (head, relation and tail rows of 512 triples)
  and the `[1024, 256]` block `g` of the shared negatives' rows. It stores the column of row sums of `(h · r) · t` and, four
  times side by side, the product of `h · r` with `g` contracted over the 256 entries of a row (a change of float format
  is the identity at the exact values, and a product accumulated into zero is the plain sum).
-/
import proofs.«122852_j24197845745912_2_alg».proof.Proof.Gen.KernelIdeal.Skeleton
import Idealize.ShloMosaic.Lib.ValueIdx
import Idealize.ShloMosaic.Lib.Pipeline.Value
import Idealize.ShloMosaic.PureOps.Ideal.Laws
import proofs.«122852_j24197845745912_2_alg».proof.Proof.LibLayout
import proofs.«122852_j24197845745912_2_alg».proof.Proof.LibRows

noncomputable section

namespace Cert.Score.Body

open Idealize.ShloMosaic Idealize.ShloMosaic.ValueIdx Cert.KernelIdeal Cert.KernelIdeal.Gen

/-- The product `h · r` at `(p, e)`. -/
theorem pay1_apply (v0 v2 : Vec Ideal S512x256 .f32) (p : Fin 512) (e : Fin 256) :
    k0_pay1 (F := Ideal) v0 v2 (ix2 p e) = v0 (ix2 p e) * v2 (ix2 p e) := by
  unfold k0_pay1
  show mulf (F := Ideal) (φ := .f32) (shapeCast S512x256 v0 shapeCasts_S512x256_S512x256) (shapeCast S512x256 v2 shapeCasts_S512x256_S512x256) (ix2 p e) = _
  rw [shapeCast_self, shapeCast_self]
  rfl

/-- The stored column at row `p`: the sum over a row's entries of `(h · r) · t`. -/
theorem pay2_apply (v0 v2 v4 : Vec Ideal S512x256 .f32) (p : Fin 512) (u : Fin 1) :
    k0_pay2 (F := Ideal) v0 v2 v4 (ix2 p u) = ∑ e : Fin 256, v0 (ix2 p e) * v2 (ix2 p e) * v4 (ix2 p e) := by
  unfold k0_pay2
  refine (Cert.LibLayout.shapeCast_a_a1_apply _ _ p u).trans ?_
  refine (Cert.LibRows.rowSum_apply _ _ _ _ _ p).trans ?_
  refine Finset.sum_congr rfl fun e _ => ?_
  show k0_pay1 (F := Ideal) v0 v2 (ix2 p e) * shapeCast S512x256 v4 shapeCasts_S512x256_S512x256 (ix2 p e) = _
  rw [pay1_apply, shapeCast_self]

/-- On the left operand's row axis the product's operand index is the output's row. -/
theorem lhs_0 (i : S512x1024.Idx) (q : dot_S512x256_S1024x256_S512x1024_1_1_0_0_n_n.contr.Idx) :
    (dot_S512x256_S1024x256_S512x1024_1_1_0_0_n_n.lhsIdx i q 0).val = (i 0).val := by
  unfold DotDims.lhsIdx
  rw [dif_neg (show ¬(0 : Fin S512x256.rank) ∈ dot_S512x256_S1024x256_S512x1024_1_1_0_0_n_n.lhsBatch by decide), dif_pos (show (0 : Fin S512x256.rank) ∈ dot_S512x256_S1024x256_S512x1024_1_1_0_0_n_n.lhsNonContracting by decide)]
  rfl

/-- On its contracted axis it is the contraction position. -/
theorem lhs_1 (i : S512x1024.Idx) (q : dot_S512x256_S1024x256_S512x1024_1_1_0_0_n_n.contr.Idx) :
    (dot_S512x256_S1024x256_S512x1024_1_1_0_0_n_n.lhsIdx i q 1).val = (q ⟨0, by decide⟩).val :=
  dot_S512x256_S1024x256_S512x1024_1_1_0_0_n_n.lhsIdx_val_of_single rfl i q

/-- On the right operand's row axis the operand index is the output's column. -/
theorem rhs_0 (i : S512x1024.Idx) (q : dot_S512x256_S1024x256_S512x1024_1_1_0_0_n_n.contr.Idx) :
    (dot_S512x256_S1024x256_S512x1024_1_1_0_0_n_n.rhsIdx i q 0).val = (i 1).val := by
  unfold DotDims.rhsIdx
  rw [dif_neg (show ¬(0 : Fin S1024x256.rank) ∈ dot_S512x256_S1024x256_S512x1024_1_1_0_0_n_n.rhsBatch by decide), dif_pos (show (0 : Fin S1024x256.rank) ∈ dot_S512x256_S1024x256_S512x1024_1_1_0_0_n_n.rhsNonContracting by decide)]
  rfl

/-- On its contracted axis it is the contraction position. -/
theorem rhs_1 (i : S512x1024.Idx) (q : dot_S512x256_S1024x256_S512x1024_1_1_0_0_n_n.contr.Idx) :
    (dot_S512x256_S1024x256_S512x1024_1_1_0_0_n_n.rhsIdx i q 1).val = (q ⟨0, by decide⟩).val :=
  dot_S512x256_S1024x256_S512x1024_1_1_0_0_n_n.rhsIdx_val_of_single rfl i q

/-- The stored product at `(p, n)`: the sum over a row's entries of `(h · r)` of row `p` times `g` of row `n`. -/
theorem pay3_apply (v0 v2 : Vec Ideal S512x256 .f32) (v12 : Vec Ideal S1024x256 .bf16) (p : Fin 512) (n : Fin 1024) :
    k0_pay3 (F := Ideal) v0 v2 v12 (ix2 p n) = ∑ e : Fin 256, v0 (ix2 p e) * v2 (ix2 p e) * v12 (ix2 n e) := by
  unfold k0_pay3
  show matmul (F := Ideal) dot_S512x256_S1024x256_S512x1024_1_1_0_0_n_n none (truncf .bf16 (k0_pay1 (F := Ideal) v0 v2) bitsLt_bf16_f32) (shapeCast S1024x256 v12 shapeCasts_S1024x256_S1024x256)
    (constant S512x1024 .f32 0x00000000#32) (ix2 p n) = _
  simp only [matmul]
  rw [Ideal.matmul_constant_zero_apply, ← Equiv.sum_comp (contrEquiv1 dot_S512x256_S1024x256_S512x1024_1_1_0_0_n_n 256 rfl rfl).symm]
  refine Finset.sum_congr rfl fun k _ => ?_
  have hk := contrEquiv1_symm_val dot_S512x256_S1024x256_S512x1024_1_1_0_0_n_n 256 rfl rfl k
  have el : dot_S512x256_S1024x256_S512x1024_1_1_0_0_n_n.lhsIdx (ix2 p n) ((contrEquiv1 dot_S512x256_S1024x256_S512x1024_1_1_0_0_n_n 256 rfl rfl).symm k) = ix2 p k := funext fun a => Fin.ext (by
    match a with
    | ⟨0, _⟩ => exact lhs_0 _ _
    | ⟨1, _⟩ => exact (lhs_1 _ _).trans hk)
  have er : dot_S512x256_S1024x256_S512x1024_1_1_0_0_n_n.rhsIdx (ix2 p n) ((contrEquiv1 dot_S512x256_S1024x256_S512x1024_1_1_0_0_n_n 256 rfl rfl).symm k) = ix2 n k := funext fun a => Fin.ext (by
    match a with
    | ⟨0, _⟩ => exact rhs_0 _ _
    | ⟨1, _⟩ => exact (rhs_1 _ _).trans hk)
  rw [el, er, shapeCast_self]
  show k0_pay1 (F := Ideal) v0 v2 (ix2 p k) * v12 (ix2 n k) = _
  rw [pay1_apply]

end Cert.Score.Body

end
-- ==== Proof.KernelBlocks.lean ====
/-
  From the blocks the grid writes back to the two arrays after the run.

  Grid point `t` reads rows `512 t … 512 t + 511` of the head, relation and tail row arrays and all 1024 rows of the
  negatives' array, and writes back rows `512 t … 512 t + 511` of both outputs. Its column block is the row sums of
  `(h · r) · t`; its wide block is four copies, side by side, of the product of `h · r` with the negatives' rows, so that
  column `j` holds the score against negative `j % 1024`. The four points' blocks tile each output array, which therefore
  ends as one function of the four arrays the grid found.
-/
import proofs.«122852_j24197845745912_2_alg».proof.Proof.Gen.KernelIdeal.Frame
import proofs.«122852_j24197845745912_2_alg».proof.Proof.KernelBody
import Idealize.ShloMosaic.Lib.Pipeline.Value
import Idealize.ShloMosaic.PureOps.Ideal

noncomputable section

open Idealize.ShloMosaic Idealize.ShloMosaic.TcCoe Idealize.SL.Sem Idealize.ShloMosaic.ValueIdx
open Idealize.ShloMosaic.Pipeline (Dat)

namespace Cert.Score.Blocks

open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-! ## The two outputs as functions of the four arrays the grid reads -/

/-- The column of positive scores: at row `q`, `∑ₑ (A0 (q, e) · A1 (q, e)) · A2 (q, e)`. -/
def posOf (A0 A1 A2 : S2048x256.Idx → EReal) : S2048x1.Idx → EReal := fun i =>
  ∑ e : Fin 256, A0 (ix2 (⟨(i 0).val, (i 0).isLt⟩ : Fin 2048) e) * A1 (ix2 (⟨(i 0).val, (i 0).isLt⟩ : Fin 2048) e)
    * A2 (ix2 (⟨(i 0).val, (i 0).isLt⟩ : Fin 2048) e)

/-- The negative scores: at `(q, j)`, `∑ₑ (A0 (q, e) · A1 (q, e)) · A3 (j % 1024, e)`. -/
def negOf (A0 A1 : S2048x256.Idx → EReal) (A3 : S1024x256.Idx → EReal) : S2048x4096.Idx → EReal := fun i =>
  ∑ e : Fin 256, A0 (ix2 (⟨(i 0).val, (i 0).isLt⟩ : Fin 2048) e) * A1 (ix2 (⟨(i 0).val, (i 0).isLt⟩ : Fin 2048) e)
    * A3 (ix2 (⟨(i 1).val % 1024, Nat.mod_lt _ (by decide)⟩ : Fin 1024) e)

/-! ## Where each window's block sits -/

/-- The block index of every window at every grid point: the row-blocked windows are at block row `t`, the
    negatives' window stays at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The heads' block at point `t` is rows `512 t …` of the heads' array. -/
theorem iblk0_apply (c : Dev nD) (t : Fin cfg0.N) (p : Fin 512) (e : Fin 256) (k : S2048x256.Idx)
    (hk0 : (k 0).val = t.val * 512 + p.val) (hk1 : (k 1).val = e.val) :
    (iblk m c 0 t : Vec Ideal S512x256 .f32) (ix2 p e) = (V m c main_v11 : S2048x256.Idx → EReal) k := by
  obtain ⟨i0, i1, -⟩ := idx_facts t
  unfold iblk
  rw [View.read_apply]
  show V m c main_v11 _ = V m c main_v11 _
  congr 1
  funext a
  apply Fin.ext
  match a with
  | ⟨0, _⟩ => show win0_0.index t (0 : Fin 2) * 512 + 1 * p.val = (k 0).val; rw [i0, hk0]; omega
  | ⟨1, _⟩ => show win0_0.index t (1 : Fin 2) * 256 + 1 * e.val = (k 1).val; rw [i1, hk1]; omega

/-- The relations' block at point `t` is rows `512 t …` of the relations' array. -/
theorem iblk1_apply (c : Dev nD) (t : Fin cfg0.N) (p : Fin 512) (e : Fin 256) (k : S2048x256.Idx)
    (hk0 : (k 0).val = t.val * 512 + p.val) (hk1 : (k 1).val = e.val) :
    (iblk m c 1 t : Vec Ideal S512x256 .f32) (ix2 p e) = (V m c main_v33 : S2048x256.Idx → EReal) k := by
  obtain ⟨-, -, i0, i1, -⟩ := idx_facts t
  unfold iblk
  rw [View.read_apply]
  show V m c main_v33 _ = V m c main_v33 _
  congr 1
  funext a
  apply Fin.ext
  match a with
  | ⟨0, _⟩ => show win0_1.index t (0 : Fin 2) * 512 + 1 * p.val = (k 0).val; rw [i0, hk0]; omega
  | ⟨1, _⟩ => show win0_1.index t (1 : Fin 2) * 256 + 1 * e.val = (k 1).val; rw [i1, hk1]; omega

/-- The tails' block at point `t` is rows `512 t …` of the tails' array. -/
theorem iblk2_apply (c : Dev nD) (t : Fin cfg0.N) (p : Fin 512) (e : Fin 256) (k : S2048x256.Idx)
    (hk0 : (k 0).val = t.val * 512 + p.val) (hk1 : (k 1).val = e.val) :
    (iblk m c 2 t : Vec Ideal S512x256 .f32) (ix2 p e) = (V m c main_v18 : S2048x256.Idx → EReal) k := by
  obtain ⟨-, -, -, -, i0, i1, -⟩ := idx_facts t
  unfold iblk
  rw [View.read_apply]
  show V m c main_v18 _ = V m c main_v18 _
  congr 1
  funext a
  apply Fin.ext
  match a with
  | ⟨0, _⟩ => show win0_2.index t (0 : Fin 2) * 512 + 1 * p.val = (k 0).val; rw [i0, hk0]; omega
  | ⟨1, _⟩ => show win0_2.index t (1 : Fin 2) * 256 + 1 * e.val = (k 1).val; rw [i1, hk1]; omega

/-- The negatives' block at every point is the whole negatives' array. -/
theorem iblk3_apply (c : Dev nD) (t : Fin cfg0.N) (n : Fin 1024) (e : Fin 256) (k : S1024x256.Idx)
    (hk0 : (k 0).val = n.val) (hk1 : (k 1).val = e.val) :
    (iblk m c 3 t : Vec Ideal S1024x256 .bf16) (ix2 n e) = (V m c main_v26 : S1024x256.Idx → EReal) k := by
  obtain ⟨-, -, -, -, -, -, i0, i1, -⟩ := idx_facts t
  unfold iblk
  rw [View.read_apply]
  show V m c main_v26 _ = V m c main_v26 _
  congr 1
  funext a
  apply Fin.ext
  match a with
  | ⟨0, _⟩ => show win0_3.index t (0 : Fin 2) * 1024 + 1 * n.val = (k 0).val; rw [i0, hk0]; omega
  | ⟨1, _⟩ => show win0_3.index t (1 : Fin 2) * 256 + 1 * e.val = (k 1).val; rw [i1, hk1]; omega

/-! ## The column of positive scores -/

/-- What point `t` writes back to the first output is block `t` of `posOf` of the arrays the grid found. -/
theorem flushed4_eq (c : Dev nD) (t : Fin cfg0.N) :
    (dats m 0 c).flushed 4 t
      = ((cfg0.win 4).blk t).view.read (Elt Ideal) (posOf (V m c main_v11) (V m c main_v33) (V m c main_v18)) := by
  show (cfg0.win 4).cut (grid0.coords t) ((dats m 0 c).after 4 t) = _
  rw [after0_4]
  unfold out0_4
  rw [View.canon_unit_zero hz]
  simp only [View.ld_unit_zero (S := S512x256) hz]
  obtain ⟨-, -, -, -, -, -, -, -, i40, i41, -⟩ := idx_facts t
  funext j
  have hj0 : (j 0).val < 512 := (j 0).isLt
  show k0_pay2 (F := Ideal) (iblk m c 0 t) (iblk m c 1 t) (iblk m c 2 t) (ix2 (⟨(j 0).val, hj0⟩ : Fin 512) (j 1))
    = posOf (V m c main_v11) (V m c main_v33) (V m c main_v18) (((cfg0.win 4).blk t).view.emb j)
  refine (Body.pay2_apply _ _ _ _ _).trans ?_
  unfold posOf
  refine Finset.sum_congr rfl fun e _ => ?_
  have h0 : ((((cfg0.win 4).blk t).view.emb j) 0).val = t.val * 512 + (j 0).val := by
    show win0_4.index t (0 : Fin 2) * 512 + 1 * (j 0).val = _
    rw [i40]; omega
  rw [iblk0_apply m c t ⟨(j 0).val, hj0⟩ e (ix2 (⟨((((cfg0.win 4).blk t).view.emb j) 0).val, ((((cfg0.win 4).blk t).view.emb j) 0).isLt⟩ : Fin 2048) e) h0 rfl,
    iblk1_apply m c t ⟨(j 0).val, hj0⟩ e (ix2 (⟨((((cfg0.win 4).blk t).view.emb j) 0).val, ((((cfg0.win 4).blk t).view.emb j) 0).isLt⟩ : Fin 2048) e) h0 rfl,
    iblk2_apply m c t ⟨(j 0).val, hj0⟩ e (ix2 (⟨((((cfg0.win 4).blk t).view.emb j) 0).val, ((((cfg0.win 4).blk t).view.emb j) 0).isLt⟩ : Fin 2048) e) h0 rfl]

/-- An index of the first output is in point `t`'s block iff each coordinate is in the block's range. -/
theorem mem_blk4 (t : Fin cfg0.N) (i : S2048x1.Idx) :
    i ∈ ((cfg0.win 4).blk t).view.set ↔ ∀ a : Fin 2, win0_4.index t a * S512x1.size a ≤ (i a).val
      ∧ (i a).val < win0_4.index t a * S512x1.size a + S512x1.size a := by
  show i ∈ ((View.whole main_v34_0).slice (win0_4.rect t)).set ↔ _
  rw [View.set_slice_whole, Rect.mem_set_unit]
  exact Iff.rfl

/-- The first output after the run. -/
theorem final4 (c : Dev nD) :
    (dats m 0 c).arrAt 4 cfg0.N = posOf (V m c main_v11) (V m c main_v33) (V m c main_v18) :=
  (dats m 0 c).arrAt_eq_of_cover 4 _ (fun t _ => flushed4_eq m c t) fun i => by
    have hi0 : (i 0).val < 2048 := (i 0).isLt
    have hi1 : (i 1).val < 1 := (i 1).isLt
    have hN : cfg0.N = 4 := N_0
    obtain ⟨t, ht⟩ : ∃ t : Fin cfg0.N, t.val = (i 0).val / 512 := ⟨⟨(i 0).val / 512, by rw [hN]; omega⟩, rfl⟩
    obtain ⟨-, -, -, -, -, -, -, -, i40, i41, -⟩ := idx_facts t
    refine ⟨t, flush0_4 t, ?_⟩
    rw [mem_blk4]
    intro a
    match a with
    | ⟨0, _⟩ =>
      show win0_4.index t (0 : Fin 2) * 512 ≤ (i 0).val ∧ (i 0).val < win0_4.index t (0 : Fin 2) * 512 + 512
      rw [i40, ht]; omega
    | ⟨1, _⟩ =>
      show win0_4.index t (1 : Fin 2) * 1 ≤ (i 1).val ∧ (i 1).val < win0_4.index t (1 : Fin 2) * 1 + 1
      rw [i41]; omega

/-! ## The negative scores -/

/-- Four copies of one `[512, 1024]` block stored side by side read, at column `j`, the block's column `j % 1024`. -/
theorem tiles_apply (P : Vec Ideal S512x1024 .f32) (y : S512x4096.Idx) :
    View.canon [(⟨r0_6, P⟩ : View.Piece (Elt Ideal) S512x4096 .f32), ⟨r0_5, P⟩, ⟨r0_4, P⟩, ⟨r0_3, P⟩] y
      = P (ix2 (⟨(y 0).val, (y 0).isLt⟩ : Fin 512) (⟨(y 1).val % 1024, Nat.mod_lt _ (by decide)⟩ : Fin 1024)) := by
  refine View.canon_apply_of_pieces
    (fun y : S512x4096.Idx => P (ix2 (⟨(y 0).val, (y 0).isLt⟩ : Fin 512) (⟨(y 1).val % 1024, Nat.mod_lt _ (by decide)⟩ : Fin 1024)))
    _ ?_ y (cover0_5 P P P P y)
  intro pc hpc x
  simp only [List.mem_cons, List.mem_nil_iff, or_false] at hpc
  rcases hpc with rfl | rfl | rfl | rfl
  · refine congrArg P (funext fun a => Fin.ext ?_)
    have h1 : (x 1).val < 1024 := (x 1).isLt
    match a with
    | ⟨0, _⟩ => show (x 0).val = 0 + 1 * (x 0).val; omega
    | ⟨1, _⟩ => show (x 1).val = (3072 + 1 * (x 1).val) % 1024; omega
  · refine congrArg P (funext fun a => Fin.ext ?_)
    have h1 : (x 1).val < 1024 := (x 1).isLt
    match a with
    | ⟨0, _⟩ => show (x 0).val = 0 + 1 * (x 0).val; omega
    | ⟨1, _⟩ => show (x 1).val = (2048 + 1 * (x 1).val) % 1024; omega
  · refine congrArg P (funext fun a => Fin.ext ?_)
    have h1 : (x 1).val < 1024 := (x 1).isLt
    match a with
    | ⟨0, _⟩ => show (x 0).val = 0 + 1 * (x 0).val; omega
    | ⟨1, _⟩ => show (x 1).val = (1024 + 1 * (x 1).val) % 1024; omega
  · refine congrArg P (funext fun a => Fin.ext ?_)
    have h1 : (x 1).val < 1024 := (x 1).isLt
    match a with
    | ⟨0, _⟩ => show (x 0).val = 0 + 1 * (x 0).val; omega
    | ⟨1, _⟩ => show (x 1).val = (0 + 1 * (x 1).val) % 1024; omega

/-- What point `t` writes back to the second output is block `t` of `negOf` of the arrays the grid found. -/
theorem flushed5_eq (c : Dev nD) (t : Fin cfg0.N) :
    (dats m 0 c).flushed 5 t
      = ((cfg0.win 5).blk t).view.read (Elt Ideal) (negOf (V m c main_v11) (V m c main_v33) (V m c main_v26)) := by
  show (cfg0.win 5).cut (grid0.coords t) ((dats m 0 c).after 5 t) = _
  rw [after0_5]
  unfold out0_5
  simp only [View.ld_unit_zero (S := S512x256) hz, View.ld_unit_zero (S := S1024x256) hz]
  obtain ⟨-, -, -, -, -, -, -, -, -, -, i50, i51⟩ := idx_facts t
  funext j
  have hj0 : (j 0).val < 512 := (j 0).isLt
  have hj1 : (j 1).val < 4096 := (j 1).isLt
  show View.canon [(⟨r0_6, k0_pay3 (F := Ideal) (iblk m c 0 t) (iblk m c 1 t) (iblk m c 3 t)⟩ : View.Piece (Elt Ideal) S512x4096 .f32),
      ⟨r0_5, k0_pay3 (F := Ideal) (iblk m c 0 t) (iblk m c 1 t) (iblk m c 3 t)⟩,
      ⟨r0_4, k0_pay3 (F := Ideal) (iblk m c 0 t) (iblk m c 1 t) (iblk m c 3 t)⟩,
      ⟨r0_3, k0_pay3 (F := Ideal) (iblk m c 0 t) (iblk m c 1 t) (iblk m c 3 t)⟩] j
    = negOf (V m c main_v11) (V m c main_v33) (V m c main_v26) (((cfg0.win 5).blk t).view.emb j)
  refine (tiles_apply _ j).trans ?_
  refine (Body.pay3_apply _ _ _ _ _).trans ?_
  unfold negOf
  refine Finset.sum_congr rfl fun e _ => ?_
  have h0 : ((((cfg0.win 5).blk t).view.emb j) 0).val = t.val * 512 + (j 0).val := by
    show win0_5.index t (0 : Fin 2) * 512 + 1 * (j 0).val = _
    rw [i50]; omega
  have h1 : ((((cfg0.win 5).blk t).view.emb j) 1).val % 1024 = (j 1).val % 1024 := by
    show (win0_5.index t (1 : Fin 2) * 4096 + 1 * (j 1).val) % 1024 = _
    rw [i51]; omega
  rw [iblk0_apply m c t ⟨(j 0).val, hj0⟩ e (ix2 (⟨((((cfg0.win 5).blk t).view.emb j) 0).val, ((((cfg0.win 5).blk t).view.emb j) 0).isLt⟩ : Fin 2048) e) h0 rfl,
    iblk1_apply m c t ⟨(j 0).val, hj0⟩ e (ix2 (⟨((((cfg0.win 5).blk t).view.emb j) 0).val, ((((cfg0.win 5).blk t).view.emb j) 0).isLt⟩ : Fin 2048) e) h0 rfl,
    iblk3_apply m c t ⟨(j 1).val % 1024, Nat.mod_lt _ (by decide)⟩ e
      (ix2 (⟨((((cfg0.win 5).blk t).view.emb j) 1).val % 1024, Nat.mod_lt _ (by decide)⟩ : Fin 1024) e) h1 rfl]

/-- An index of the second output is in point `t`'s block iff each coordinate is in the block's range. -/
theorem mem_blk5 (t : Fin cfg0.N) (i : S2048x4096.Idx) :
    i ∈ ((cfg0.win 5).blk t).view.set ↔ ∀ a : Fin 2, win0_5.index t a * S512x4096.size a ≤ (i a).val
      ∧ (i a).val < win0_5.index t a * S512x4096.size a + S512x4096.size a := by
  show i ∈ ((View.whole main_v34_1).slice (win0_5.rect t)).set ↔ _
  rw [View.set_slice_whole, Rect.mem_set_unit]
  exact Iff.rfl

/-- The second output after the run. -/
theorem final5 (c : Dev nD) :
    (dats m 0 c).arrAt 5 cfg0.N = negOf (V m c main_v11) (V m c main_v33) (V m c main_v26) :=
  (dats m 0 c).arrAt_eq_of_cover 5 _ (fun t _ => flushed5_eq m c t) fun i => by
    have hi0 : (i 0).val < 2048 := (i 0).isLt
    have hi1 : (i 1).val < 4096 := (i 1).isLt
    have hN : cfg0.N = 4 := N_0
    obtain ⟨t, ht⟩ : ∃ t : Fin cfg0.N, t.val = (i 0).val / 512 := ⟨⟨(i 0).val / 512, by rw [hN]; omega⟩, rfl⟩
    obtain ⟨-, -, -, -, -, -, -, -, -, -, i50, i51⟩ := idx_facts t
    refine ⟨t, flush0_5 t, ?_⟩
    rw [mem_blk5]
    intro a
    match a with
    | ⟨0, _⟩ =>
      show win0_5.index t (0 : Fin 2) * 512 ≤ (i 0).val ∧ (i 0).val < win0_5.index t (0 : Fin 2) * 512 + 512
      rw [i50, ht]; omega
    | ⟨1, _⟩ =>
      show win0_5.index t (1 : Fin 2) * 4096 ≤ (i 1).val ∧ (i 1).val < win0_5.index t (1 : Fin 2) * 4096 + 4096
      rw [i51]; omega

end Cert.Score.Blocks

end
-- ==== Proof.KernelValue.lean ====
/-
  The kernel's two results as the specification's functions of the six arguments.

  The arrays the grid reads are the gathered rows (`Entry`), whose entries are the specification's row entries
  (`Host`); the two arrays the grid writes are `posOf` and `negOf` of them (`Blocks`). The first result is the
  column of positive scores flattened to a vector by the one operation behind the grid; the second is the grid's
  wide output itself.
-/
import proofs.«122852_j24197845745912_2_alg».proof.Proof.KernelEntry
import proofs.«122852_j24197845745912_2_alg».proof.Proof.KernelBlocks
import proofs.«122852_j24197845745912_2_alg».proof.Proof.LibColumns
import Idealize.ShloMosaic.Lib.StableHlo.Run

noncomputable section

namespace Cert.Score.KernelValue

open Idealize.ShloMosaic Idealize.ShloMosaic.TcCoe Idealize.SL.Sem Idealize.ShloMosaic.StableHlo Idealize.ShloMosaic.ValueIdx
open Cert.KernelIdeal Cert.KernelIdeal.Gen Cert.KernelIdeal.Facts₀ Cert.Score.Host Cert.Score.Entry Cert.Score.Blocks

variable (m : (ℓ : Loc nD τ sig) → Buf (Elt Ideal) ℓ) (ρ : Dev nD → PrngReg)

/-- The column of positive scores, entry by entry, is the specification's positive score. -/
theorem posOf_eq (c : Dev nD) (q : Fin 2048) (u : Fin 1) :
    posOf (V m c main_v11) (V m c main_v33) (V m c main_v18) (ix2 q u)
      = Cert.Score.posScore (m ((c : Thread nD τ).loc main_arg0)) (m ((c : Thread nD τ).loc main_arg1))
          (m ((c : Thread nD τ).loc main_arg2)) (m ((c : Thread nD τ).loc main_arg4)) (m ((c : Thread nD τ).loc main_arg5)) q := by
  rw [V_heads, V_rels, V_tails]
  unfold posOf Cert.Score.posScore
  refine Finset.sum_congr rfl fun e _ => ?_
  show entRows _ _ (ix2 q e) * relRows _ _ (ix2 q e) * entRows _ _ (ix2 q e) = _
  rw [entRows_apply, relRows_apply, entRows_apply]
  rfl

/-- The wide output, entry by entry, is the specification's score against negative `j % 1024`. -/
theorem negOf_eq (c : Dev nD) (i : S2048x4096.Idx) :
    negOf (V m c main_v11) (V m c main_v33) (V m c main_v26) i
      = Cert.Score.negArr (m ((c : Thread nD τ).loc main_arg0)) (m ((c : Thread nD τ).loc main_arg1))
          (m ((c : Thread nD τ).loc main_arg3)) (m ((c : Thread nD τ).loc main_arg4)) (m ((c : Thread nD τ).loc main_arg5)) i := by
  rw [V_heads, V_rels, V_negs]
  unfold negOf Cert.Score.negArr Cert.Score.negScore
  refine Finset.sum_congr rfl fun e _ => ?_
  rw [entRows_apply, relRows_apply, negRows_apply]
  rfl

/-- The one operation behind the grid flattens the column of positive scores. -/
theorem tail_pos (c : Dev nD) :
    (Pipeline.afterTail₀ cfgs (dats m) 0 (V0 m) [hostOps1] c main_v35 : S2048.Idx → EReal)
      = shapeCast S2048 ((dats m 0 c).arrAt 4 cfg0.N) Facts₀.shapeCasts_S2048x1_S2048 := by
  unfold Pipeline.afterTail₀
  show StableHlo.after hostOps1 _ (Proc.devRef .tc main_v35) = _
  after_results
  rw [Pipeline.withArrays_arr spec0 launch0.win.arr_inj c _ _ 4]
  rfl

/-- The first result is the vector of positive scores. -/
theorem first_result (c : Dev nD) :
    (Pipeline.afterTail₀ cfgs (dats m) 0 (V0 m) [hostOps1] c main_v35 : S2048.Idx → EReal)
      = Cert.Score.posVec (m ((c : Thread nD τ).loc main_arg0)) (m ((c : Thread nD τ).loc main_arg1))
          (m ((c : Thread nD τ).loc main_arg2)) (m ((c : Thread nD τ).loc main_arg4)) (m ((c : Thread nD τ).loc main_arg5)) := by
  rw [tail_pos, final4]
  funext i
  obtain ⟨q, rfl⟩ : ∃ q : Fin 2048, i = ix1 q := ⟨i 0, eq_ix1 i⟩
  rw [Cert.LibColumns.shapeCast_a1_a_apply, posOf_eq]
  rfl

/-- The second result is the array of negative scores. -/
theorem second_result (c : Dev nD) :
    ((dats m 0 c).arrAt 5 cfg0.N : S2048x4096.Idx → EReal)
      = Cert.Score.negArr (m ((c : Thread nD τ).loc main_arg0)) (m ((c : Thread nD τ).loc main_arg1))
          (m ((c : Thread nD τ).loc main_arg3)) (m ((c : Thread nD τ).loc main_arg4)) (m ((c : Thread nD τ).loc main_arg5)) := by
  rw [final5]
  exact funext fun i => negOf_eq m c i

/-- The kernel's run: every weakly fair execution terminates with the two results at the specification's functions of
    the arguments, and the arguments unchanged. -/
theorem run : θ_run defs (onTc (τ := τ) (main (F := Ideal))) ⟨m, fun _ => 0, ρ⟩ fun r => ∀ c : Dev nD,
      r.2.mem ((c : Thread nD τ).loc main_v35)
        = Cert.Score.posVec (m ((c : Thread nD τ).loc main_arg0)) (m ((c : Thread nD τ).loc main_arg1))
            (m ((c : Thread nD τ).loc main_arg2)) (m ((c : Thread nD τ).loc main_arg4)) (m ((c : Thread nD τ).loc main_arg5))
      ∧ r.2.mem ((c : Thread nD τ).loc main_v34_1)
        = Cert.Score.negArr (m ((c : Thread nD τ).loc main_arg0)) (m ((c : Thread nD τ).loc main_arg1))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v35 (Pipeline.mem_restRefs_of main_v35 (by decide) (by decide))).trans (first_result m c),
      ((h c).1 5).trans (second_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Score.KernelValue

end
-- ==== Proof.RefRows.lean ====
/-
  The reference program's rows, read at coordinates.

  The reference joins heads, tails and negatives into one integer array `[4, 2048]` (columns `0 … 511` heads,
  `512 … 1023` tails, `1024 … 2047` negatives), normalises every entry against the entity table (a negative entry
  counts from the end), and takes for every entry its row of the table. Read at coordinates, the block of rows at
  `(a, b)` is the entity row named by the joined array's entry `(a, b)`; its three column ranges are the rows of the
  heads, of the tails and of the negatives.
-/
import proofs.«122852_j24197845745912_2_alg».proof.Proof.Gen.ReferenceIdeal.Read
import proofs.«122852_j24197845745912_2_alg».proof.Proof.Spec
import Idealize.ShloMosaic.Lib.ValueIdx
import Idealize.ShloMosaic.Lib.Pipeline.Value

noncomputable section

namespace Cert.Score.Ref

open Idealize.ShloMosaic Idealize.ShloMosaic.ValueIdx Cert.ReferenceIdeal Cert.ReferenceIdeal.Read Cert.LibRowGather
  Cert.Score

variable (x0 x1 x2 : (⟨S4x512, .i32⟩ : BufTy).Contents (Elt Ideal))
  (x3 : (⟨S4x1x1024, .i32⟩ : BufTy).Contents (Elt Ideal))
  (x4 : (⟨S250000x256, .f32⟩ : BufTy).Contents (Elt Ideal))
  (x5 : (⟨S1000x256, .f32⟩ : BufTy).Contents (Elt Ideal))

/-! ## The joined integer array -/

/-- Columns `0 … 511` of the joined array are the heads. -/
theorem cat_head (j : S4x2048.Idx) (a : Fin 4) (p : Fin 512) (h0 : (j 0).val = a.val) (h1 : (j 1).val = p.val) :
    val_main_v1 (F := Ideal) x0 x2 x3 j = x0 (ix2 a p) := by
  unfold val_main_v1
  refine concatenate_apply_piece (1 : Fin S4x2048.rank)
    [⟨S4x512, x0⟩, ⟨S4x512, x2⟩, ⟨S4x1024, val_main_v0 (F := Ideal) x3⟩] _ j 0
    (by show 0 < 3; decide) S4x512 x0 rfl rfl 0 rfl (ix2 a p) ?_ ?_
  · intro b hb
    match b with
    | ⟨0, _⟩ => exact h0.symm
    | ⟨1, _⟩ => exact absurd rfl hb
  · show 0 + p.val = (j 1).val
    omega

/-- Columns `512 … 1023` of the joined array are the tails. -/
theorem cat_tail (j : S4x2048.Idx) (a : Fin 4) (p : Fin 512) (h0 : (j 0).val = a.val)
    (h1 : (j 1).val = 512 + p.val) :
    val_main_v1 (F := Ideal) x0 x2 x3 j = x2 (ix2 a p) := by
  unfold val_main_v1
  refine concatenate_apply_piece (1 : Fin S4x2048.rank)
    [⟨S4x512, x0⟩, ⟨S4x512, x2⟩, ⟨S4x1024, val_main_v0 (F := Ideal) x3⟩] _ j 1
    (by show 1 < 3; decide) S4x512 x2 rfl rfl 512 rfl (ix2 a p) ?_ ?_
  · intro b hb
    match b with
    | ⟨0, _⟩ => exact h0.symm
    | ⟨1, _⟩ => exact absurd rfl hb
  · show 512 + p.val = (j 1).val
    omega

/-- Columns `1024 … 2047` of the joined array are the negatives, slab by slab. -/
theorem cat_neg (j : S4x2048.Idx) (a : Fin 4) (n : Fin 1024) (h0 : (j 0).val = a.val)
    (h1 : (j 1).val = 1024 + n.val) :
    val_main_v1 (F := Ideal) x0 x2 x3 j = x3 (ix3 a (0 : Fin 1) n) := by
  unfold val_main_v1
  refine (concatenate_apply_piece (1 : Fin S4x2048.rank)
    [⟨S4x512, x0⟩, ⟨S4x512, x2⟩, ⟨S4x1024, val_main_v0 (F := Ideal) x3⟩] _ j 2
    (by show 2 < 3; decide) S4x1024 (val_main_v0 (F := Ideal) x3) rfl rfl
    1024 rfl (ix2 a n) ?_ ?_).trans ?_
  · intro b hb
    match b with
    | ⟨0, _⟩ => exact h0.symm
    | ⟨1, _⟩ => exact absurd rfl hb
  · show 1024 + n.val = (j 1).val
    omega
  · rw [val_main_v0_apply]
    refine congrArg x3 (funext fun d => Fin.ext ?_)
    have ha := a.isLt
    have hn := n.isLt
    match d with
    | ⟨0, _⟩ => show (a.val * 1024 + n.val) / 1024 = a.val; omega
    | ⟨1, _⟩ => rfl
    | ⟨2, _⟩ => show (a.val * 1024 + n.val) % 1024 = n.val; omega

/-- The normalised joined array: every entry wrapped against the entity table. -/
theorem norm_ent (j : S4x2048.Idx) :
    val_main_v6 (F := Ideal) x0 x2 x3 j = wrap 250000#32 (val_main_v1 (F := Ideal) x0 x2 x3 j) := by
  rw [val_main_v6_apply, val_main_v3_apply, val_main_v5_apply, val_main_v2_apply, val_main_v4_apply, val_main_c_apply,
    val_main_c_0_apply]
  rfl

/-! ## The gathered entity rows -/

/-- The block of entity rows at `(a, b, e)`: entry `e` of the row named by the joined array's entry `(a, b)`. -/
theorem ent_rows (a : Fin 4) (b : Fin 2048) (e : Fin 256) :
    val_main_v8 (F := Ideal) x0 x2 x3 x4 (ix3 a b e)
      = x4 (ix2 (entRow (val_main_v1 (F := Ideal) x0 x2 x3 (ix2 a b))) e) := by
  unfold val_main_v8
  refine (rowGather3_apply (N := 250000) (C := 256) (A := 4) (B := 2048) (by decide)
    Facts₀.gather_S250000x256_S4x2048x1_S4x2048x256_2_0_n_n_0_2_1256_wf x4 (val_main_v7 (F := Ideal) x0 x2 x3) a b e).trans ?_
  rw [val_main_v7_apply, norm_ent]
  have hj : idx_main_v7 (ix3 a b (0 : Fin 1)) = ix2 a b := by
    funext d
    match d with
    | ⟨0, _⟩ => rfl
    | ⟨1, _⟩ => rfl
  rw [hj]
  rfl

/-- Entry `e` of the entity row of the head at `(a, p)`. -/
theorem head_rows (i : S4x512x256.Idx) (a : Fin 4) (p : Fin 512) (e : Fin 256) (h0 : (i 0).val = a.val)
    (h1 : (i 1).val = p.val) (h2 : (i 2).val = e.val) :
    val_main_v9 (F := Ideal) x0 x2 x3 x4 i = x4 (ix2 (entRow (x0 (ix2 a p))) e) := by
  rw [val_main_v9_apply]
  have hi : idx_main_v9 i = ix3 a (⟨p.val, by omega⟩ : Fin 2048) e := by
    funext d
    refine Fin.ext ?_
    match d with
    | ⟨0, _⟩ => exact h0
    | ⟨1, _⟩ => exact h1
    | ⟨2, _⟩ => exact h2
  rw [hi, ent_rows, cat_head x0 x2 x3 _ a p rfl rfl]

/-- Entry `e` of the entity row of the tail at `(a, p)`. -/
theorem tail_rows (i : S4x512x256.Idx) (a : Fin 4) (p : Fin 512) (e : Fin 256) (h0 : (i 0).val = a.val)
    (h1 : (i 1).val = p.val) (h2 : (i 2).val = e.val) :
    val_main_v10 (F := Ideal) x0 x2 x3 x4 i = x4 (ix2 (entRow (x2 (ix2 a p))) e) := by
  rw [val_main_v10_apply]
  have hi : idx_main_v10 i = ix3 a (⟨512 + p.val, by omega⟩ : Fin 2048) e := by
    funext d
    refine Fin.ext ?_
    match d with
    | ⟨0, _⟩ => exact h0
    | ⟨1, _⟩ => show 512 + (i 1).val = 512 + p.val; omega
    | ⟨2, _⟩ => exact h2
  rw [hi, ent_rows, cat_tail x0 x2 x3 _ a p rfl rfl]

/-- Entry `e` of the entity row of the negative at `(a, n)`. -/
theorem neg_rows (i : S4x1024x256.Idx) (a : Fin 4) (n : Fin 1024) (e : Fin 256) (h0 : (i 0).val = a.val)
    (h1 : (i 1).val = n.val) (h2 : (i 2).val = e.val) :
    val_main_v11 (F := Ideal) x0 x2 x3 x4 i = x4 (ix2 (entRow (x3 (ix3 a (0 : Fin 1) n))) e) := by
  rw [val_main_v11_apply]
  have hi : idx_main_v11 i = ix3 a (⟨1024 + n.val, by omega⟩ : Fin 2048) e := by
    funext d
    refine Fin.ext ?_
    match d with
    | ⟨0, _⟩ => exact h0
    | ⟨1, _⟩ => show 1024 + (i 1).val = 1024 + n.val; omega
    | ⟨2, _⟩ => exact h2
  rw [hi, ent_rows, cat_neg x0 x2 x3 _ a n rfl rfl]

end Cert.Score.Ref

end
-- ==== Proof.RefPos.lean ====
/-
  The reference program's first result is the vector of positive scores.

  The head rows `[4, 512, 256]` and the tail rows are flattened to `[2048, 256]`, row `q` being the row of triple `q`;
  the relation rows are taken from the relation table at the relation array flattened to 2048 entries and normalised.
  The result sums over the 256 entries of a row the product head · relation · tail, starting from zero.
-/
import proofs.«122852_j24197845745912_2_alg».proof.Proof.RefRows
import Idealize.ShloMosaic.PureOps.Ideal.Laws

noncomputable section

namespace Cert.Score.Ref

open Idealize.ShloMosaic Idealize.ShloMosaic.ValueIdx Cert.ReferenceIdeal Cert.ReferenceIdeal.Read Cert.LibRowGather
  Cert.Score

variable (x0 x1 x2 : (⟨S4x512, .i32⟩ : BufTy).Contents (Elt Ideal))
  (x3 : (⟨S4x1x1024, .i32⟩ : BufTy).Contents (Elt Ideal))
  (x4 : (⟨S250000x256, .f32⟩ : BufTy).Contents (Elt Ideal))
  (x5 : (⟨S1000x256, .f32⟩ : BufTy).Contents (Elt Ideal))

/-- The flattened relation indices, normalised: every entry wrapped against the relation table. -/
theorem norm_rel_flat (i : S2048.Idx) :
    val_main_v39 (F := Ideal) x1 i = wrap 1000#32 (val_main_v34 (F := Ideal) x1 i) := by
  rw [val_main_v39_apply, val_main_v36_apply, val_main_v38_apply, val_main_v35_apply, val_main_v37_apply,
    val_main_c_3_apply, val_main_c_4_apply]
  rfl

/-- Row `q` of the gathered relation rows is the relation row of triple `q`. -/
theorem pos_rel (i : S2048x256.Idx) (q : Fin 2048) (e : Fin 256) (h0 : (i 0).val = q.val) (h1 : (i 1).val = e.val) :
    val_main_v41 (F := Ideal) x1 x5 i = relEmb x1 x5 q e := by
  obtain rfl : i = ix2 q e := by
    funext d
    refine Fin.ext ?_
    match d with
    | ⟨0, _⟩ => exact h0
    | ⟨1, _⟩ => exact h1
  unfold val_main_v41
  refine (rowGather_apply (N := 1000) (C := 256) (R := 2048) (by decide)
    Facts₀.gather_S1000x256_S2048x1_S2048x256_1_0_n_n_0_1_1256_wf x5 (val_main_v40 (F := Ideal) x1) q e).trans ?_
  rw [val_main_v40_apply, norm_rel_flat, val_main_v34_apply]
  have hv : idx_main_v34 (idx_main_v40 (ix2 q (0 : Fin 1)))
      = ix2 (⟨q.val / 512, by omega⟩ : Fin 4) (⟨q.val % 512, by omega⟩ : Fin 512) := by
    funext d
    match d with
    | ⟨0, _⟩ => rfl
    | ⟨1, _⟩ => rfl
  rw [hv]
  rfl

/-- Row `q` of the flattened head rows is the entity row of the head of triple `q`. -/
theorem pos_head (i : S2048x256.Idx) (q : Fin 2048) (e : Fin 256) (h0 : (i 0).val = q.val) (h1 : (i 1).val = e.val) :
    val_main_v33 (F := Ideal) x0 x2 x3 x4 i = headEmb x0 x4 q e := by
  have hq := q.isLt
  have he := e.isLt
  rw [val_main_v33_apply]
  exact head_rows x0 x2 x3 x4 _ ⟨q.val / 512, by omega⟩ ⟨q.val % 512, by omega⟩ e
    (by show ((i 0).val * 256 + (i 1).val) / 131072 = q.val / 512; omega)
    (by show ((i 0).val * 256 + (i 1).val) / 256 % 512 = q.val % 512; omega)
    (by show ((i 0).val * 256 + (i 1).val) % 256 = e.val; omega)

/-- Row `q` of the flattened tail rows is the entity row of the tail of triple `q`. -/
theorem pos_tail (i : S2048x256.Idx) (q : Fin 2048) (e : Fin 256) (h0 : (i 0).val = q.val) (h1 : (i 1).val = e.val) :
    val_main_v42 (F := Ideal) x0 x2 x3 x4 i = tailEmb x2 x4 q e := by
  have hq := q.isLt
  have he := e.isLt
  rw [val_main_v42_apply]
  exact tail_rows x0 x2 x3 x4 _ ⟨q.val / 512, by omega⟩ ⟨q.val % 512, by omega⟩ e
    (by show ((i 0).val * 256 + (i 1).val) / 131072 = q.val / 512; omega)
    (by show ((i 0).val * 256 + (i 1).val) / 256 % 512 = q.val % 512; omega)
    (by show ((i 0).val * 256 + (i 1).val) % 256 = e.val; omega)

/-- The reference's first result, index by index, is the positive score of each triple. -/
theorem ref_pos (x0 x1 x2 : (⟨S4x512, .i32⟩ : BufTy).Contents (Elt Ideal))
    (x3 : (⟨S4x1x1024, .i32⟩ : BufTy).Contents (Elt Ideal))
    (x4 : (⟨S250000x256, .f32⟩ : BufTy).Contents (Elt Ideal))
    (x5 : (⟨S1000x256, .f32⟩ : BufTy).Contents (Elt Ideal)) :
    Cert.ReferenceIdeal.Read.val_main_v45 (F := Ideal) x0 x1 x2 x3 x4 x5 = Cert.Score.posVec x0 x1 x2 x4 x5 := by
  funext i
  rw [val_main_v45_apply, val_main_cst_apply, Ideal.ofBits_def, Ideal.ofBits_zero_f32, zero_add]
  show _ = posScore x0 x1 x2 x4 x5 ⟨(i 0).val, (i 0).isLt⟩
  unfold posScore
  refine Finset.sum_congr rfl fun e _ => ?_
  rw [val_main_v44_apply, val_main_v43_apply, Ideal.mulf_def, Ideal.mulf_def,
    pos_head x0 x2 x3 x4 _ ⟨(i 0).val, (i 0).isLt⟩ e rfl rfl,
    pos_rel x1 x5 _ ⟨(i 0).val, (i 0).isLt⟩ e rfl rfl,
    pos_tail x0 x2 x3 x4 _ ⟨(i 0).val, (i 0).isLt⟩ e rfl rfl]

end Cert.Score.Ref

end
-- ==== Proof.RefNeg.lean ====
/-
  The reference program's second result is the array of negative scores.

  The head rows are repeated four times and flattened to `[8192, 256]`, so that row `r` is the head row of triple
  `r % 2048`; the relation rows are taken at the relation array repeated and flattened the same way. The negative rows
  are the first slab's 1024 rows. The product of `head · relation` `[8192, 256]` with the negative rows `[1024, 256]`,
  contracted over the 256 entries, is regrouped `[4, 2048, 1024] → [2048, 4, 1024] → [2048, 4096]`: entry `(q, j)` is
  row `(j / 1024) · 2048 + q`, column `j % 1024` of the product, the score of triple `q` against negative `j % 1024`.
-/
import proofs.«122852_j24197845745912_2_alg».proof.Proof.RefRows
import Idealize.ShloMosaic.PureOps.Ideal.Laws

noncomputable section

namespace Cert.Score.Ref

open Idealize.ShloMosaic Idealize.ShloMosaic.ValueIdx Cert.ReferenceIdeal Cert.ReferenceIdeal.Read Cert.LibRowGather
  Cert.Score

variable (x0 x1 x2 : (⟨S4x512, .i32⟩ : BufTy).Contents (Elt Ideal))
  (x3 : (⟨S4x1x1024, .i32⟩ : BufTy).Contents (Elt Ideal))
  (x4 : (⟨S250000x256, .f32⟩ : BufTy).Contents (Elt Ideal))
  (x5 : (⟨S1000x256, .f32⟩ : BufTy).Contents (Elt Ideal))

/-! ## The negative rows -/

/-- The negative rows with a unit axis inserted, `[4, 1, 1024, 256]`: entry `(a, 0, n, e)` is entry `e` of the entity row of
    the negative at `(a, n)`. -/
theorem negs12 (i : S4x1x1024x256.Idx) (a : Fin 4) (n : Fin 1024) (e : Fin 256) (h0 : (i 0).val = a.val)
    (h2 : (i 2).val = n.val) (h3 : (i 3).val = e.val) :
    val_main_v12 (F := Ideal) x0 x2 x3 x4 i = x4 (ix2 (entRow (x3 (ix3 a (0 : Fin 1) n))) e) := by
  have ha := a.isLt
  have hn := n.isLt
  have he := e.isLt
  have h1 : (i 1).val < 1 := (i 1).isLt
  rw [val_main_v12_apply]
  exact neg_rows x0 x2 x3 x4 _ a n e
    (by show ((((i 0).val * 1 + (i 1).val) * 1024 + (i 2).val) * 256 + (i 3).val) / 262144 = a.val; omega)
    (by show ((((i 0).val * 1 + (i 1).val) * 1024 + (i 2).val) * 256 + (i 3).val) / 256 % 1024 = n.val; omega)
    (by show ((((i 0).val * 1 + (i 1).val) * 1024 + (i 2).val) * 256 + (i 3).val) % 256 = e.val; omega)

/-- The first slab of the negative rows, `[1, 1, 1024, 256]`. -/
theorem negs13 (i : S1x1x1024x256.Idx) (n : Fin 1024) (e : Fin 256) (h2 : (i 2).val = n.val) (h3 : (i 3).val = e.val) :
    val_main_v13 (F := Ideal) x0 x2 x3 x4 i = x4 (ix2 (entRow (x3 (ix3 (0 : Fin 4) (0 : Fin 1) n))) e) := by
  have h0 : (i 0).val < 1 := (i 0).isLt
  rw [val_main_v13_apply]
  exact negs12 x0 x2 x3 x4 _ 0 n e (by show (i 0).val = 0; omega) h2 h3

/-- The first slab with one unit axis dropped, `[1, 1024, 256]`. -/
theorem negs14 (i : S1x1024x256.Idx) (n : Fin 1024) (e : Fin 256) (h1 : (i 1).val = n.val) (h2 : (i 2).val = e.val) :
    val_main_v14 (F := Ideal) x0 x2 x3 x4 i = x4 (ix2 (entRow (x3 (ix3 (0 : Fin 4) (0 : Fin 1) n))) e) := by
  have hn := n.isLt
  have he := e.isLt
  have h0 : (i 0).val < 1 := (i 0).isLt
  rw [val_main_v14_apply]
  exact negs13 x0 x2 x3 x4 _ n e
    (by show (((i 0).val * 1024 + (i 1).val) * 256 + (i 2).val) / 256 % 1024 = n.val; omega)
    (by show (((i 0).val * 1024 + (i 1).val) * 256 + (i 2).val) % 256 = e.val; omega)

/-- The first slab with the unit axis put back, `[1, 1, 1024, 256]`. -/
theorem negs15 (i : S1x1x1024x256.Idx) (n : Fin 1024) (e : Fin 256) (h2 : (i 2).val = n.val) (h3 : (i 3).val = e.val) :
    val_main_v15 (F := Ideal) x0 x2 x3 x4 i = x4 (ix2 (entRow (x3 (ix3 (0 : Fin 4) (0 : Fin 1) n))) e) := by
  rw [val_main_v15_apply]
  exact negs14 x0 x2 x3 x4 _ n e h2 h3

/-- Row `n` of the negative rows is the entity row of shared negative `n`. -/
theorem neg_negs (i : S1024x256.Idx) (n : Fin 1024) (e : Fin 256) (h0 : (i 0).val = n.val) (h1 : (i 1).val = e.val) :
    val_main_v27 (F := Ideal) x0 x2 x3 x4 i = negEmb x3 x4 n e := by
  have hn := n.isLt
  have he := e.isLt
  rw [val_main_v27_apply]
  exact negs15 x0 x2 x3 x4 _ n e
    (by show ((i 0).val * 256 + (i 1).val) / 256 % 1024 = n.val; omega)
    (by show ((i 0).val * 256 + (i 1).val) % 256 = e.val; omega)

/-! ## The repeated head and relation rows -/

/-- Row `r` of the repeated head rows is the entity row of the head of triple `r % 2048`. -/
theorem neg_head (i : S8192x256.Idx) (q : Fin 2048) (e : Fin 256) (h0 : (i 0).val % 2048 = q.val)
    (h1 : (i 1).val = e.val) :
    val_main_v18 (F := Ideal) x0 x2 x3 x4 i = headEmb x0 x4 q e := by
  have hq := q.isLt
  have he := e.isLt
  have hi0 : (i 0).val < 8192 := (i 0).isLt
  rw [val_main_v18_apply, val_main_v17_apply]
  exact head_rows x0 x2 x3 x4 _ ⟨q.val / 512, by omega⟩ ⟨q.val % 512, by omega⟩ e
    (by show ((i 0).val * 256 + (i 1).val) / 131072 % 4 = q.val / 512; omega)
    (by show ((i 0).val * 256 + (i 1).val) / 256 % 512 = q.val % 512; omega)
    (by show ((i 0).val * 256 + (i 1).val) % 256 = e.val; omega)

/-- The repeated relation indices, normalised: every entry wrapped against the relation table. -/
theorem norm_rel_rep (i : S8192.Idx) :
    val_main_v24 (F := Ideal) x1 i = wrap 1000#32 (val_main_v19 (F := Ideal) x1 i) := by
  rw [val_main_v24_apply, val_main_v21_apply, val_main_v23_apply, val_main_v20_apply, val_main_v22_apply,
    val_main_c_1_apply, val_main_c_2_apply]
  rfl

/-- Row `r` of the repeated relation rows is the relation row of triple `r % 2048`. -/
theorem neg_rel (r : Fin 8192) (q : Fin 2048) (e : Fin 256) (hq : r.val % 2048 = q.val) :
    val_main_v26 (F := Ideal) x1 x5 (ix2 r e) = relEmb x1 x5 q e := by
  have hr := r.isLt
  unfold val_main_v26
  refine (rowGather_apply (N := 1000) (C := 256) (R := 8192) (by decide)
    Facts₀.gather_S1000x256_S8192x1_S8192x256_1_0_n_n_0_1_1256_wf x5 (val_main_v25 (F := Ideal) x1) r e).trans ?_
  rw [val_main_v25_apply, norm_rel_rep, val_main_v19_apply, val_main_v16_apply]
  have hv : idx_main_v16 (idx_main_v19 (idx_main_v25 (ix2 r (0 : Fin 1))))
      = ix2 (⟨q.val / 512, by omega⟩ : Fin 4) (⟨q.val % 512, by omega⟩ : Fin 512) := by
    funext d
    refine Fin.ext ?_
    match d with
    | ⟨0, _⟩ => show r.val / 512 % 4 = q.val / 512; omega
    | ⟨1, _⟩ => show r.val % 512 = q.val % 512; omega
  rw [hv]
  rfl

/-! ## The product and its regrouping -/

/-- Entry `(r, n)` of the product is the score of triple `r % 2048` against negative `n`. -/
theorem neg_dot (j : S8192x1024.Idx) (q : Fin 2048) (n : Fin 1024) (h0 : (j 0).val % 2048 = q.val)
    (h1 : (j 1).val = n.val) :
    val_main_v29 (F := Ideal) x0 x1 x2 x3 x4 x5 j = negScore x0 x1 x3 x4 x5 q n := by
  have hj0 : (j 0).val < 8192 := (j 0).isLt
  rw [val_main_v29_apply]
  unfold negScore
  refine Finset.sum_congr rfl fun e _ => ?_
  have hl : lidx_main_v29 j e = ix2 (⟨(j 0).val, hj0⟩ : Fin 8192) e := by
    funext d
    match d with
    | ⟨0, _⟩ => rfl
    | ⟨1, _⟩ => rfl
  rw [val_main_v28_apply, Ideal.mulf_def, hl, neg_head x0 x2 x3 x4 _ q e h0 rfl, neg_rel x1 x5 ⟨(j 0).val, hj0⟩ q e h0,
    neg_negs x0 x2 x3 x4 _ n e h1 rfl]

/-- The reference's second result, index by index: row `q` repeats the 1024 negative scores of triple `q`. -/
theorem ref_neg (x0 x1 x2 : (⟨S4x512, .i32⟩ : BufTy).Contents (Elt Ideal))
    (x3 : (⟨S4x1x1024, .i32⟩ : BufTy).Contents (Elt Ideal))
    (x4 : (⟨S250000x256, .f32⟩ : BufTy).Contents (Elt Ideal))
    (x5 : (⟨S1000x256, .f32⟩ : BufTy).Contents (Elt Ideal)) :
    Cert.ReferenceIdeal.Read.val_main_v32 (F := Ideal) x0 x1 x2 x3 x4 x5 = Cert.Score.negArr x0 x1 x3 x4 x5 := by
  funext i
  have h0 : (i 0).val < 2048 := (i 0).isLt
  have h1 : (i 1).val < 4096 := (i 1).isLt
  rw [val_main_v32_apply, val_main_v31_apply, val_main_v30_apply]
  exact neg_dot x0 x1 x2 x3 x4 x5 _ ⟨(i 0).val, (i 0).isLt⟩ ⟨(i 1).val % 1024, Nat.mod_lt _ (by decide)⟩
    (by
      show ((((i 0).val * 4096 + (i 1).val) / 1024 % 4 * 2048 + ((i 0).val * 4096 + (i 1).val) / 4096) * 1024
        + ((i 0).val * 4096 + (i 1).val) % 1024) / 1024 % 2048 = (i 0).val
      omega)
    (by
      show ((((i 0).val * 4096 + (i 1).val) / 1024 % 4 * 2048 + ((i 0).val * 4096 + (i 1).val) / 4096) * 1024
        + ((i 0).val * 4096 + (i 1).val) % 1024) % 1024 = (i 1).val % 1024
      omega)

end Cert.Score.Ref

end
-- ==== Proof.lean ====
/-
  The five claims about the triple-scoring kernel and its reference.

  Both programs gather rows of an entity table and of a relation table at integer arrays read as 2048 triples and 1024
  shared negatives, and return, per triple `q`, the sum over a row's entries of `(h · r) · t` and, per negative `n`, of
  `(h · r) · g` (`Proof/Spec.lean`). The kernel gathers with three flat index vectors and computes the sums on a grid of
  four row blocks, writing the 1024 negative scores of a row four times side by side; the reference gathers once at the
  concatenated index array, multiplies 8192 repeated rows into the negatives' rows and re-lays the product by a
  reshape, a transpose and a reshape. At the exact values a change of float format is the identity and both programs'
  sums run over the same terms, so the results are equal entry by entry; no argument needs to be finite for that.
  The frames of the two kernel programs are the generated ones, the reference's frame is its generated run; the
  idealization rewrote nothing.
-/
import proofs.«122852_j24197845745912_2_alg».proof.Defs
import proofs.«122852_j24197845745912_2_alg».proof.Proof.Gen.Kernel
import proofs.«122852_j24197845745912_2_alg».proof.Proof.Gen.Kernel.Skeleton
import proofs.«122852_j24197845745912_2_alg».proof.Proof.Gen.Kernel.Launch
import proofs.«122852_j24197845745912_2_alg».proof.Proof.Gen.Kernel.Points
import proofs.«122852_j24197845745912_2_alg».proof.Proof.Gen.Kernel.Frame
import proofs.«122852_j24197845745912_2_alg».proof.Proof.Gen.KernelIdeal
import proofs.«122852_j24197845745912_2_alg».proof.Proof.Gen.KernelIdeal.Skeleton
import proofs.«122852_j24197845745912_2_alg».proof.Proof.Gen.KernelIdeal.Launch
import proofs.«122852_j24197845745912_2_alg».proof.Proof.Gen.KernelIdeal.Points
import proofs.«122852_j24197845745912_2_alg».proof.Proof.Gen.KernelIdeal.Frame
import proofs.«122852_j24197845745912_2_alg».proof.Proof.Gen.ReferenceIdeal
import proofs.«122852_j24197845745912_2_alg».proof.Proof.Gen.Pre_finite_inputs
import proofs.«122852_j24197845745912_2_alg».proof.Proof.Gen.ReferenceIdeal.Run
import proofs.«122852_j24197845745912_2_alg».proof.Proof.Gen.ReferenceIdeal.Read
import proofs.«122852_j24197845745912_2_alg».proof.Proof.KernelValue
import proofs.«122852_j24197845745912_2_alg».proof.Proof.RefPos
import proofs.«122852_j24197845745912_2_alg».proof.Proof.RefNeg
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read at the exact values. -/
theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the six arguments both programs end with the positive scores in their first result and
    the negative scores in their second. -/
theorem algebraic : Cert.algebraic_KernelIdeal_ReferenceIdeal := by
  intro m ρ m' ρ' _ hagree
  refine ⟨_, _, Cert.Score.KernelValue.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2⟩
  · rw [Cert.ReferenceIdeal.Read.val_main_v45_eq, Cert.Score.Ref.ref_pos, a0, a1, a2, a4, a5]
  · rw [Cert.ReferenceIdeal.Read.val_main_v32_eq, Cert.Score.Ref.ref_neg, a0, a1, a3, a4, a5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
